-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x1024 : Shape := ⟨2, ![256, 1024]⟩
abbrev S1024 : Shape := ⟨1, ![1024]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S1024 .f32) (main_arg8 : FVec F S1024 .f32) (main_arg9 : FVec F S256 .f32) (main_arg10 : FVec F S256 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256x1024 .f32) (main_arg5 : FVec F S1024 .f32) (main_arg6 : FVec F S1024 .f32) (main_arg7 : FVec F S1024 .f32) (main_arg8 : FVec F S1024 .f32) (main_arg9 : FVec F S256 .f32) (main_arg10 : FVec F S256 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x256 .f32) (main_arg1 : FVec F S65536x256 .f32) (main_arg2 : FVec F S65536x256 .f32) (main_arg3 : FVec F S256x1024 .f32) (main_arg4 : FVec F S256x1024 .f32) (main_arg5 : FVec F S1024 .f32) (main_arg6 : FVec F S1024 .f32) (main_arg7 : FVec F S1024 .f32) (main_arg8 : FVec F S1024 .f32) (main_arg9 : FVec F S256 .f32) (main_arg10 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_arg7 main_arg8 main_arg9 main_arg10 main_v13 main_v16
-- ==== Kernel.lean ====
abbrev S65536x256 : Shape := ⟨2, ![65536, 256]⟩
abbrev S256x1024 : Shape := ⟨2, ![256, 1024]⟩
abbrev S1024 : Shape := ⟨1, ![1024]⟩
abbrev S256 : Shape := ⟨1, ![256]⟩
abbrev S1024x256 : Shape := ⟨2, ![1024, 256]⟩
abbrev S256x256 : Shape := ⟨2, ![256, 256]⟩
abbrev S1024x1 : Shape := ⟨2, ![1024, 1]⟩
abbrev S1x256 : Shape := ⟨2, ![1, 256]⟩

abbrev nBuf : Space → Nat
  | .hbm => 13
  | .vmem => 18
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x1024, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S256, .f32⟩
  | .hbm, ⟨10, _⟩ => ⟨S256, .f32⟩
  | .hbm, ⟨11, _⟩ => ⟨S65536x256, .f32⟩
  | .hbm, ⟨12, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x1024, .f32⟩
  | .local _ .vmem, ⟨7, _⟩ => ⟨S256x1024, .f32⟩
  | .local _ .vmem, ⟨8, _⟩ => ⟨S1024, .f32⟩
  | .local _ .vmem, ⟨9, _⟩ => ⟨S1024, .f32⟩
  | .local _ .vmem, ⟨10, _⟩ => ⟨S1024, .f32⟩
  | .local _ .vmem, ⟨11, _⟩ => ⟨S1024, .f32⟩
  | .local _ .vmem, ⟨12, _⟩ => ⟨S256, .f32⟩
  | .local _ .vmem, ⟨13, _⟩ => ⟨S256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x1024_S256x256_0_0 : ∀ a, (![0, 0] : Fin 2 → Nat) a + S256x256.size a ≤ S256x1024.size a
  h_S256x256 : 0 < S256x256.numel
  inb_S1024_S256_0 : ∀ a, (![0] : Fin 1 → Nat) a + S256.size a ≤ S1024.size a
  h_S256 : 0 < S256.numel
  reduces_S1024x256_S1024 : S1024x256.Reduces [1] S1024
  shapeCasts_S1024_S1024x1 : S1024.ShapeCasts S1024x1
  broadcasts_S1024x1_S1024x256 : S1024x1.Broadcasts S1024x256
  shapeCasts_S256_S1x256 : S256.ShapeCasts S1x256
  broadcasts_S1x256_S1024x256 : S1x256.Broadcasts S1024x256
  inb_S256x1024_S256x256_0_256 : ∀ a, (![0, 256] : Fin 2 → Nat) a + S256x256.size a ≤ S256x1024.size a
  inb_S1024_S256_256 : ∀ a, (![256] : Fin 1 → Nat) a + S256.size a ≤ S1024.size a
  inb_S256x1024_S256x256_0_512 : ∀ a, (![0, 512] : Fin 2 → Nat) a + S256x256.size a ≤ S256x1024.size a
  inb_S1024_S256_512 : ∀ a, (![512] : Fin 1 → Nat) a + S256.size a ≤ S1024.size a
  inb_S256x1024_S256x256_0_768 : ∀ a, (![0, 768] : Fin 2 → Nat) a + S256x256.size a ≤ S256x1024.size a
  inb_S1024_S256_768 : ∀ a, (![768] : Fin 1 → Nat) a + S256.size a ≤ S1024.size a
  inb_S256_S256_0 : ∀ a, (![0] : Fin 1 → Nat) a + S256.size a ≤ S256.size a
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .f32 = 32 ∨ (Rect.block (s := S256x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S65536x256.size a
  hwx0_11 : ∀ i : grid0.Coords, EltTy.bits .f32 = 32 ∨ (Rect.block (s := S65536x256) S1024x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x256.size a ≤ S65536x256.size a
  hwx0_12 : ∀ i : grid0.Coords, EltTy.bits .f32 = 32 ∨ (Rect.block (s := S65536x256) S1024x256.size (cc0_transform_12 i) (hinb0_12 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S1024x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_1) S1024x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x1024 : Shape := ⟨2, ![256, 1024]⟩
abbrev S1024 : Shape := ⟨1, ![1024]⟩
abbrev S256 : Shape := ⟨1, ![256]⟩
abbrev S65536x1024 : Shape := ⟨2, ![65536, 1024]⟩
abbrev S65536x4x256 : Shape := ⟨3, ![65536, 4, 256]⟩
abbrev S4x256 : Shape := ⟨2, ![4, 256]⟩
abbrev S_ : Shape := ⟨0, ![]⟩
abbrev S65536x4 : Shape := ⟨2, ![65536, 4]⟩
abbrev S65536x4x1 : Shape := ⟨3, ![65536, 4, 1]⟩
abbrev S1x4x256 : Shape := ⟨3, ![1, 4, 256]⟩
abbrev S65536x1x256 : Shape := ⟨3, ![65536, 1, 256]⟩
abbrev S65536 : Shape := ⟨1, ![65536]⟩
abbrev S65536x1 : Shape := ⟨2, ![65536, 1]⟩
abbrev S1x256 : Shape := ⟨2, ![1, 256]⟩

abbrev nBuf : Space → Nat
  | .hbm => 148
  | .vmem => 0
  | .smem => 0
  | _ => 0

abbrev hbmTy0_0 (i : Nat) : BufTy := match i % 128 with
  | 0 => ⟨S65536x256, .f32⟩
  | 1 => ⟨S65536x256, .f32⟩
  | 2 => ⟨S65536x256, .f32⟩
  | 3 => ⟨S256x1024, .f32⟩
  | 4 => ⟨S256x1024, .f32⟩
  | 5 => ⟨S1024, .f32⟩
  | 6 => ⟨S1024, .f32⟩
  | 7 => ⟨S1024, .f32⟩
  | 8 => ⟨S1024, .f32⟩
  | 9 => ⟨S256, .f32⟩
  | 10 => ⟨S256, .f32⟩
  | 11 => ⟨S65536x1024, .f32⟩
  | 12 => ⟨S65536x4x256, .f32⟩
  | 13 => ⟨S65536x1024, .f32⟩
  | 14 => ⟨S65536x4x256, .f32⟩
  | 15 => ⟨S4x256, .f32⟩
  | 16 => ⟨S4x256, .f32⟩
  | 17 => ⟨S_, .f32⟩
  | 18 => ⟨S65536x4, .f32⟩
  | 19 => ⟨S65536x4x1, .f32⟩
  | 20 => ⟨S_, .f32⟩
  | 21 => ⟨S65536x4x1, .f32⟩
  | 22 => ⟨S65536x4x1, .f32⟩
  | 23 => ⟨S65536x4x256, .f32⟩
  | 24 => ⟨S65536x4x256, .f32⟩
  | 25 => ⟨S65536x4x256, .f32⟩
  | 26 => ⟨S_, .f32⟩
  | 27 => ⟨S65536x4, .f32⟩
  | 28 => ⟨S65536x4x1, .f32⟩
  | 29 => ⟨S_, .f32⟩
  | 30 => ⟨S65536x4x1, .f32⟩
  | 31 => ⟨S65536x4x1, .f32⟩
  | 32 => ⟨S_, .f32⟩
  | 33 => ⟨S65536x4x1, .f32⟩
  | 34 => ⟨S65536x4x1, .f32⟩
  | 35 => ⟨S65536x4x1, .f32⟩
  | 36 => ⟨S1x4x256, .f32⟩
  | 37 => ⟨S65536x4x256, .f32⟩
  | 38 => ⟨S65536x4x256, .f32⟩
  | 39 => ⟨S_, .f32⟩
  | 40 => ⟨S65536x4x1, .f32⟩
  | 41 => ⟨S65536x4x1, .f32⟩
  | 42 => ⟨S65536x4x256, .f32⟩
  | 43 => ⟨S65536x4x256, .f32⟩
  | 44 => ⟨S1x4x256, .f32⟩
  | 45 => ⟨S65536x4x256, .f32⟩
  | 46 => ⟨S65536x4x256, .f32⟩
  | 47 => ⟨S4x256, .f32⟩
  | 48 => ⟨S4x256, .f32⟩
  | 49 => ⟨S_, .f32⟩
  | 50 => ⟨S65536x4, .f32⟩
  | 51 => ⟨S65536x4x1, .f32⟩
  | 52 => ⟨S_, .f32⟩
  | 53 => ⟨S65536x4x1, .f32⟩
  | 54 => ⟨S65536x4x1, .f32⟩
  | 55 => ⟨S65536x4x256, .f32⟩
  | 56 => ⟨S65536x4x256, .f32⟩
  | 57 => ⟨S65536x4x256, .f32⟩
  | 58 => ⟨S_, .f32⟩
  | 59 => ⟨S65536x4, .f32⟩
  | 60 => ⟨S65536x4x1, .f32⟩
  | 61 => ⟨S_, .f32⟩
  | 62 => ⟨S65536x4x1, .f32⟩
  | 63 => ⟨S65536x4x1, .f32⟩
  | 64 => ⟨S_, .f32⟩
  | 65 => ⟨S65536x4x1, .f32⟩
  | 66 => ⟨S65536x4x1, .f32⟩
  | 67 => ⟨S65536x4x1, .f32⟩
  | 68 => ⟨S1x4x256, .f32⟩
  | 69 => ⟨S65536x4x256, .f32⟩
  | 70 => ⟨S65536x4x256, .f32⟩
  | 71 => ⟨S_, .f32⟩
  | 72 => ⟨S65536x4x1, .f32⟩
  | 73 => ⟨S65536x4x1, .f32⟩
  | 74 => ⟨S65536x4x256, .f32⟩
  | 75 => ⟨S65536x4x256, .f32⟩
  | 76 => ⟨S1x4x256, .f32⟩
  | 77 => ⟨S65536x4x256, .f32⟩
  | 78 => ⟨S65536x4x256, .f32⟩
  | 79 => ⟨S65536x4x256, .f32⟩
  | 80 => ⟨S65536x1x256, .f32⟩
  | 81 => ⟨S65536x256, .f32⟩
  | 82 => ⟨S65536x256, .f32⟩
  | 83 => ⟨S65536x256, .f32⟩
  | 84 => ⟨S_, .f32⟩
  | 85 => ⟨S65536x256, .f32⟩
  | 86 => ⟨S65536x256, .f32⟩
  | 87 => ⟨S_, .f32⟩
  | 88 => ⟨S65536x256, .f32⟩
  | 89 => ⟨S65536x256, .f32⟩
  | 90 => ⟨S65536x1x256, .f32⟩
  | 91 => ⟨S65536x256, .f32⟩
  | 92 => ⟨S65536x256, .f32⟩
  | 93 => ⟨S65536x256, .f32⟩
  | 94 => ⟨S_, .f32⟩
  | 95 => ⟨S65536x256, .f32⟩
  | 96 => ⟨S65536x256, .f32⟩
  | 97 => ⟨S_, .f32⟩
  | 98 => ⟨S65536x256, .f32⟩
  | 99 => ⟨S65536x256, .f32⟩
  | 100 => ⟨S65536x1x256, .f32⟩
  | 101 => ⟨S65536x256, .f32⟩
  | 102 => ⟨S65536x256, .f32⟩
  | 103 => ⟨S65536x1x256, .f32⟩
  | 104 => ⟨S65536x256, .f32⟩
  | 105 => ⟨S65536x256, .f32⟩
  | 106 => ⟨S65536x256, .f32⟩
  | 107 => ⟨S_, .f32⟩
  | 108 => ⟨S65536x256, .f32⟩
  | 109 => ⟨S65536x256, .f32⟩
  | 110 => ⟨S_, .f32⟩
  | 111 => ⟨S65536x256, .f32⟩
  | 112 => ⟨S65536x256, .f32⟩
  | 113 => ⟨S65536x256, .f32⟩
  | 114 => ⟨S65536x256, .f32⟩
  | 115 => ⟨S65536x256, .f32⟩
  | 116 => ⟨S_, .f32⟩
  | 117 => ⟨S65536, .f32⟩
  | 118 => ⟨S65536x1, .f32⟩
  | 119 => ⟨S_, .f32⟩
  | 120 => ⟨S65536x1, .f32⟩
  | 121 => ⟨S65536x1, .f32⟩
  | 122 => ⟨S65536x256, .f32⟩
  | 123 => ⟨S65536x256, .f32⟩
  | 124 => ⟨S65536x256, .f32⟩
  | 125 => ⟨S_, .f32⟩
  | 126 => ⟨S65536, .f32⟩
  | 127 => ⟨S65536x1, .f32⟩
  | _ => ⟨S65536x256, .f32⟩

abbrev hbmTy0_1 (i : Nat) : BufTy := match i % 128 with
  | 0 => ⟨S_, .f32⟩
  | 1 => ⟨S65536x1, .f32⟩
  | 2 => ⟨S65536x1, .f32⟩
  | 3 => ⟨S_, .f32⟩
  | 4 => ⟨S65536x1, .f32⟩
  | 5 => ⟨S65536x1, .f32⟩
  | 6 => ⟨S65536x1, .f32⟩
  | 7 => ⟨S1x256, .f32⟩
  | 8 => ⟨S65536x256, .f32⟩
  | 9 => ⟨S65536x256, .f32⟩
  | 10 => ⟨S_, .f32⟩
  | 11 => ⟨S65536x1, .f32⟩
  | 12 => ⟨S65536x1, .f32⟩
  | 13 => ⟨S65536x256, .f32⟩
  | 14 => ⟨S65536x256, .f32⟩
  | 15 => ⟨S1x256, .f32⟩
  | 16 => ⟨S65536x256, .f32⟩
  | 17 => ⟨S65536x256, .f32⟩
  | 18 => ⟨S65536x256, .f32⟩
  | 19 => ⟨S65536x256, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_17 : Ref sig .tc := ⟨.hbm, 116, rfl⟩
abbrev main_v87 : Ref sig .tc := ⟨.hbm, 117, rfl⟩
abbrev main_v88 : Ref sig .tc := ⟨.hbm, 118, rfl⟩
abbrev main_cst_18 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_19 : Ref sig .tc := ⟨.hbm, 125, rfl⟩
abbrev main_v94 : Ref sig .tc := ⟨.hbm, 126, rfl⟩
abbrev main_v95 : Ref sig .tc := ⟨.hbm, 127, rfl⟩
abbrev main_cst_20 : Ref sig .tc := ⟨.hbm, 128, rfl⟩
abbrev main_v96 : Ref sig .tc := ⟨.hbm, 129, rfl⟩
abbrev main_v97 : Ref sig .tc := ⟨.hbm, 130, rfl⟩
abbrev main_cst_21 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_22 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩

abbrev nD : Nat := 1
abbrev τ : Topo := Topo.v7x

variable {F : FTy → Type} [FloatOps F]

class Facts₀ : Prop where
  shapeCasts_S65536x1024_S65536x4x256 : S65536x1024.ShapeCasts S65536x4x256
  shapeCasts_S1024_S4x256 : S1024.ShapeCasts S4x256
  reducesTo_S65536x4x256_S65536x4_d2 : S65536x4x256.ReducesTo [2] S65536x4
  h_S_ : 0 < S_.numel
  bcast_S65536x4_S65536x4x1_0_1 : S65536x4.BroadcastsInDim S65536x4x1 (![0, 1] : Fin 2 → Fin S65536x4x1.rank)
  bcast_S_S65536x4x1 : S_.BroadcastsInDim S65536x4x1 (![] : Fin 0 → Fin S65536x4x1.rank)
  bcast_S65536x4x1_S65536x4x256_0_1_2 : S65536x4x1.BroadcastsInDim S65536x4x256 (![0, 1, 2] : Fin 3 → Fin S65536x4x256.rank)
  bcast_S4x256_S1x4x256_1_2 : S4x256.BroadcastsInDim S1x4x256 (![1, 2] : Fin 2 → Fin S1x4x256.rank)
  bcast_S1x4x256_S65536x4x256_0_1_2 : S1x4x256.BroadcastsInDim S65536x4x256 (![0, 1, 2] : Fin 3 → Fin S65536x4x256.rank)
  slices_S65536x4x256_S65536x1x256_0_0_0 : S65536x4x256.Slices ![0, 0, 0] S65536x1x256
  shapeCasts_S65536x1x256_S65536x256 : S65536x1x256.ShapeCasts S65536x256
  bcast_S_S65536x256 : S_.BroadcastsInDim S65536x256 (![] : Fin 0 → Fin S65536x256.rank)
  slices_S65536x4x256_S65536x1x256_0_1_0 : S65536x4x256.Slices ![0, 1, 0] S65536x1x256
  slices_S65536x4x256_S65536x1x256_0_2_0 : S65536x4x256.Slices ![0, 2, 0] S65536x1x256
  slices_S65536x4x256_S65536x1x256_0_3_0 : S65536x4x256.Slices ![0, 3, 0] S65536x1x256
  reducesTo_S65536x256_S65536_d1 : S65536x256.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x256_0_1 : S65536x1.BroadcastsInDim S65536x256 (![0, 1] : Fin 2 → Fin S65536x256.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  dot_S65536x256_S256x1024_S65536x1024_1_0_0_1_n_n_wf : DotDims.WF S65536x256 S256x1024 S65536x1024 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf

class Facts : Prop extends Facts₀ where

variable [Facts]
-- ==== Proof.Spec.lean ====
/-
  One step of an LSTM cell whose gate pre-activations and new cell state pass through a layer normalisation,
  written for ONE batch row as functions on the extended reals.

  For a row z of 256 numbers, a gain g and an offset b, the normalisation used here is
      LN(z, g, b)(u) = g(u) * (z(u) - mean z) / (sqrt (mean ((z - mean z)^2) + eps) + eps) + b(u),
  with mean = (sum over the 256 lanes) / 256 and the small constant eps appearing both under the root and beside it.
  The four gates i, f, g, o occupy the lane ranges [0,256), [256,512), [512,768), [768,1024) of the two weight
  matrices K, R : [256, 1024] and of the gains and offsets g1, b1, g2, b2 : [1024].  For a row x of inputs, a row h of
  previous outputs and a row c of previous cell states,
      pre_o(u) = LN(x K[:, o + .], g1[o + .], b1[o + .])(u) + LN(h R[:, o + .], g2[o + .], b2[o + .])(u),
      c'(u)    = logistic(pre_256(u)) * c(u) + logistic(pre_0(u)) * tanh(pre_512(u)),
      h'(u)    = logistic(pre_768(u)) * tanh(LN(c', g3, b3)(u)).
  Every entry of a row of c' and h' depends on that row of x, h, c only: this is what lets a computation that walks
  over blocks of rows be compared with one that treats all rows at once.  The three float constants stay the binary
  words the programs print; both programs print the same words.
-/
import Idealize.ShloMosaic.PureOps.Ideal
import Idealize.ShloMosaic.Lib.ValueIdx

noncomputable section

open scoped BigOperators

namespace Cert.LstmSpec

open Idealize.ShloMosaic Idealize.ShloMosaic.ValueIdx

/-- The number of lanes of a row, 256, as the programs spell it. -/
abbrev w256 : EReal := Ideal.ofBits .f32 0x43800000#32
/-- The small constant of the normalisation (the float nearest 1e-8). -/
abbrev wEps : EReal := Ideal.ofBits .f32 0x322BCC77#32

/-- A row with its mean subtracted. -/
def ctr (z : Fin 256 → EReal) (u : Fin 256) : EReal := z u - Ideal.div (∑ v : Fin 256, z v) w256

/-- The divisor of the normalisation from the sum of squares of the centred row: sqrt (ss / 256 + eps) + eps. -/
def den (ss : EReal) : EReal := Ideal.sqrt (Ideal.div ss w256 + wEps) + wEps

/-- The layer normalisation of one row, from the centred row `c` and the sum `ss` of its squares. -/
def lnOf (c : Fin 256 → EReal) (ss : EReal) (g b : Fin 256 → EReal) (u : Fin 256) : EReal :=
  Ideal.div (g u * c u) (den ss) + b u

/-- The layer normalisation of one row. -/
def rowLN (z g b : Fin 256 → EReal) (u : Fin 256) : EReal :=
  lnOf (ctr z) (∑ v : Fin 256, ctr z v * ctr z v) g b u

/-- Lane `u` of the gate whose lanes start at `o`. -/
def lane (o : ℕ) (ho : o + 256 ≤ 1024) (u : Fin 256) : Fin 1024 := ⟨o + u.val, by have := u.isLt; omega⟩

/-- A row times the columns of one gate of a weight matrix. -/
def proj (x : Fin 256 → EReal) (W : (⟨2, ![256, 1024]⟩ : Shape).Idx → EReal) (o : ℕ) (ho : o + 256 ≤ 1024) (n : Fin 256) : EReal :=
  ∑ k : Fin 256, x k * W (ix2 k (lane o ho n))

/-- One gate's lanes of a gain or offset vector. -/
def seg (g : (⟨1, ![1024]⟩ : Shape).Idx → EReal) (o : ℕ) (ho : o + 256 ≤ 1024) (n : Fin 256) : EReal := g (ix1 (lane o ho n))

/-- The pre-activation of the gate whose lanes start at `o`. -/
def pre (x h : Fin 256 → EReal) (K R : (⟨2, ![256, 1024]⟩ : Shape).Idx → EReal)
    (g1 b1 g2 b2 : (⟨1, ![1024]⟩ : Shape).Idx → EReal) (o : ℕ) (ho : o + 256 ≤ 1024) (u : Fin 256) : EReal :=
  rowLN (proj x K o ho) (seg g1 o ho) (seg b1 o ho) u + rowLN (proj h R o ho) (seg g2 o ho) (seg b2 o ho) u

/-- The new cell state of one row. -/
def cNew (x h c : Fin 256 → EReal) (K R : (⟨2, ![256, 1024]⟩ : Shape).Idx → EReal)
    (g1 b1 g2 b2 : (⟨1, ![1024]⟩ : Shape).Idx → EReal) (u : Fin 256) : EReal :=
  Ideal.logistic (pre x h K R g1 b1 g2 b2 256 (by decide) u) * c u
    + Ideal.logistic (pre x h K R g1 b1 g2 b2 0 (by decide) u) * Ideal.tanh (pre x h K R g1 b1 g2 b2 512 (by decide) u)

/-- The new output of one row. -/
def hNew (x h c : Fin 256 → EReal) (K R : (⟨2, ![256, 1024]⟩ : Shape).Idx → EReal)
    (g1 b1 g2 b2 : (⟨1, ![1024]⟩ : Shape).Idx → EReal) (g3 b3 : (⟨1, ![256]⟩ : Shape).Idx → EReal) (u : Fin 256) : EReal :=
  Ideal.logistic (pre x h K R g1 b1 g2 b2 768 (by decide) u)
    * Ideal.tanh (rowLN (cNew x h c K R g1 b1 g2 b2) (fun n => g3 (ix1 n)) (fun n => b3 (ix1 n)) u)

end Cert.LstmSpec

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibReduceRead.lean ====
/-
  Reductions of a matrix along one axis, read at an index, at the ideal instance and generic in the extents.

  * the sum of an [a, b] matrix along the rows (axis 0) at column e is the sum over the rows of the entries of column e;
  * the sum along the lanes (axis 1) at row r is the sum over the lanes of the entries of row r;
  * the sum, and the maximum started from the bottom element, of an [a, 1] column along its rows: the sum over the
    rows, and the fold of max over the rows.
  Each is the library's reading of a one-axis reduction (the reduced index with the coordinate put back on the dropped
  axis) with that index written by its coordinates.
-/
import Idealize.ShloMosaic.Lib.ValueIdx
import Idealize.ShloMosaic.PureOps.Ideal.Laws

noncomputable section

open scoped BigOperators

namespace Cert.LibReduceRead

open Idealize.ShloMosaic Idealize.ShloMosaic.ValueIdx

/-- Column sums: the sum along the rows, read at column e. -/
theorem colSum_apply {a b : ℕ} (X : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (e : Fin b) :
    multiReduction .add [0] ⟨1, ![b]⟩ X 0x00000000#32 h hφ hacc (ix1 e) = ∑ s : Fin a, X (ix2 s e) := by
  refine (Ideal.multiReduction_add_single X _ h hφ hacc (ix1 e)).trans ?_
  show ∑ s : Fin a, _ = _
  exact Finset.sum_congr rfl fun s _ => congrArg X (funext fun c => Fin.ext (by
    match c with
    | ⟨0, _⟩ => rfl
    | ⟨1, _⟩ => rfl))

/-- Row sums: the sum along the lanes, read at row r. -/
theorem rowSum_apply {a b : ℕ} (X : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ X 0x00000000#32 h hφ hacc (ix1 r) = ∑ k : Fin b, X (ix2 r k) := by
  refine (Ideal.multiReduction_add_single X _ h hφ hacc (ix1 r)).trans ?_
  show ∑ k : Fin b, _ = _
  exact Finset.sum_congr rfl fun k _ => congrArg X (funext fun c => Fin.ext (by
    match c with
    | ⟨0, _⟩ => rfl
    | ⟨1, _⟩ => rfl))

/-- The row index a one-entry result puts back under a column: (s, 0). -/
theorem lift_col {a : ℕ} (h : (⟨2, ![a, 1]⟩ : Shape).Reduces [0] ⟨1, ![1]⟩) (j : (⟨1, ![1]⟩ : Shape).Idx) (s : Fin a) :
    h.lift j s = ix2 s (0 : Fin 1) :=
  funext fun c => Fin.ext (by
    match c with
    | ⟨0, _⟩ => rfl
    | ⟨1, _⟩ =>
      show (j ⟨0, _⟩).val = 0
      have hj : (j ⟨0, Nat.one_pos⟩).val < 1 := (j ⟨0, Nat.one_pos⟩).isLt
      omega)

/-- The sum of a column along its rows. -/
theorem colSum1_apply {a : ℕ} (X : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ)
    (j : (⟨1, ![1]⟩ : Shape).Idx) :
    multiReduction .add [0] ⟨1, ![1]⟩ X 0x00000000#32 h hφ hacc j = ∑ s : Fin a, X (ix2 s (0 : Fin 1)) := by
  refine (Ideal.multiReduction_add_single X _ h hφ hacc j).trans ?_
  show ∑ s : Fin a, _ = _
  exact Finset.sum_congr rfl fun s _ => congrArg X (lift_col h j s)

/-- The maximum of a column along its rows, started from the bottom element's word: the fold of max over the rows. -/
theorem colMax1_apply {a : ℕ} (X : FVec Ideal ⟨2, ![a, 1]⟩ .f32) (h : (⟨2, ![a, 1]⟩ : Shape).Reduces [0] ⟨1, ![1]⟩)
    (hφ : FKind.Formats .f32) (hacc : (0xFF800000#32 : BitVec 32) = FKind.maximumf.neutral .f32 hφ)
    (j : (⟨1, ![1]⟩ : Shape).Idx) :
    multiReduction .maximumf [0] ⟨1, ![1]⟩ X 0xFF800000#32 h hφ hacc j
      = (Finset.univ : Finset (Fin a)).fold max (Ideal.ofBits .f32 0xFF800000#32) (fun s => X (ix2 s (0 : Fin 1))) := by
  refine (Ideal.multiReduction_maximumf_single X _ h hφ hacc j).trans ?_
  show (Finset.univ : Finset (Fin a)).fold max (Ideal.ofBits .f32 0xFF800000#32) _ = _
  exact congrArg (fun f => (Finset.univ : Finset (Fin a)).fold max (Ideal.ofBits .f32 0xFF800000#32) f)
    (funext fun s => congrArg X (lift_col h j s))

end Cert.LibReduceRead

end
-- ==== Proof.KernelTile.lean ====
/-
  The body of the kernel read one batch row at a time.

  The body works on a tile of 1024 batch rows.  Its building blocks are: the product of the tile with a 256-lane slice
  of a weight matrix (operands narrowed to bf16, which changes nothing on the extended reals; accumulated into zero);
  the sum along the lanes; a row vector laid along every row; a column laid along every lane.  From these it forms,
  for every gate, the layer normalisation of each row of the product, adds the two normalised products, applies the
  logistic function and tanh, and combines them with the previous cell state.  Each building block is read here at an
  entry (p, q) of the tile; the body's intermediate values are then recognised as compositions of the building blocks,
  and the two stored tiles are read as the row functions of the specification applied to row p of the loaded tiles.
-/
import proofs.«109614_j44676249813258_1_alg».proof.Proof.Gen.KernelIdeal.Frame
import proofs.«109614_j44676249813258_1_alg».proof.Proof.Spec
import proofs.«109614_j44676249813258_1_alg».proof.Proof.LibDense
import proofs.«109614_j44676249813258_1_alg».proof.Proof.LibLayout
import proofs.«109614_j44676249813258_1_alg».proof.Proof.LibReduceRead
import Idealize.ShloMosaic.PureOps.Ideal.Laws
import Idealize.ShloMosaic.Lib.ValueIdx
import Idealize.ShloMosaic.Lib.Pipeline.Value

noncomputable section

open scoped BigOperators

namespace Cert.KernelIdeal.Tile

open Cert.KernelIdeal Cert.KernelIdeal.Gen Idealize.ShloMosaic Idealize.ShloMosaic.ValueIdx Cert.LstmSpec

/-- A tile of 1024 rows of 256 lanes. -/
abbrev Tile := FVec Ideal S1024x256 .f32
/-- One number per row of a tile. -/
abbrev Col := FVec Ideal S1024x1 .f32
/-- One number per lane. -/
abbrev Lanes := FVec Ideal S256 .f32

/-! ## The building blocks at an entry -/

/-- The sums along the lanes. -/
def rsum (v : Tile) : FVec Ideal S1024 .f32 :=
  multiReduction .add [1] S1024 v 0x00000000#32 reduces_S1024x256_S1024 (.inl rfl) rfl

theorem rsum_apply (v : Tile) (p : Fin 1024) : rsum v (ix1 p) = ∑ k : Fin 256, v (ix2 p k) :=
  Cert.LibReduceRead.rowSum_apply v _ _ _ p

/-- One number per row, as a column. -/
def col (s : FVec Ideal S1024 .f32) : Col := shapeCast S1024x1 s shapeCasts_S1024_S1024x1

theorem col_apply (s : FVec Ideal S1024 .f32) (p : Fin 1024) : col s (ix2 p (0 : Fin 1)) = s (ix1 p) :=
  Cert.LibLayout.shapeCast_a_a1_apply s _ p 0

/-- A column laid along every lane. -/
def spread (c : Col) : Tile := broadcastTo S1024x256 c broadcasts_S1024x1_S1024x256

theorem spread_apply (c : Col) (p : Fin 1024) (q : Fin 256) : spread c (ix2 p q) = c (ix2 p (0 : Fin 1)) :=
  Cert.LibLayout.broadcastTo_a1_ab_apply c _ p q

/-- A lane vector laid along every row. -/
def rows (g : Lanes) : Tile :=
  broadcastTo S1024x256 (shapeCast S1x256 g shapeCasts_S256_S1x256) broadcasts_S1x256_S1024x256

theorem rows_apply (g : Lanes) (p : Fin 1024) (q : Fin 256) : rows g (ix2 p q) = g (ix1 q) :=
  Cert.LibDense.bias_rows_kernel g _ _ (ix2 p q)

/-- The tile times a 256 x 256 matrix, accumulated into zero. -/
def mm (xb : FVec Ideal S1024x256 .bf16) (wb : FVec Ideal S256x256 .bf16) : Tile :=
  matmul dot_S1024x256_S256x256_S1024x256_1_0_0_1_n_n none xb wb (constant S1024x256 .f32 0x00000000#32)

theorem mm_apply (xb : FVec Ideal S1024x256 .bf16) (wb : FVec Ideal S256x256 .bf16) (p : Fin 1024) (q : Fin 256) :
    mm xb wb (ix2 p q) = ∑ k : Fin 256, xb (ix2 p k) * wb (ix2 k q) := by
  refine (Ideal.matmul_constant_zero_apply _ none xb wb (ix2 p q)).trans ?_
  exact Cert.LibDense.plain_sum 1024 256 256 xb wb (ix2 p q)

/-- The word of 256. -/
abbrev s256 : Ideal .f32 := Scalar.ofBits .f32 0x43800000#32
/-- The word of the small constant. -/
abbrev sEps : Ideal .f32 := Scalar.ofBits .f32 0x322BCC77#32

/-- A column divided by a number. -/
def over (c : Col) (n : Ideal .f32) : Col := divf c (broadcast S1024x1 n)

/-- Each row with its mean subtracted. -/
def ctrT (v : Tile) : Tile := subf v (spread (over (col (rsum v)) s256))

theorem ctrT_apply (v : Tile) (p : Fin 1024) (q : Fin 256) : ctrT v (ix2 p q) = ctr (fun k => v (ix2 p k)) q := by
  show v (ix2 p q) - spread (over (col (rsum v)) s256) (ix2 p q) = _
  rw [spread_apply]
  show v (ix2 p q) - Ideal.div (col (rsum v) (ix2 p (0 : Fin 1))) w256 = _
  rw [col_apply, rsum_apply]
  rfl

/-- The sums of squares along the lanes. -/
def ssqT (c : Tile) : FVec Ideal S1024 .f32 := rsum (mulf c c)

theorem ssqT_apply (c : Tile) (p : Fin 1024) : ssqT c (ix1 p) = ∑ k : Fin 256, c (ix2 p k) * c (ix2 p k) :=
  rsum_apply _ p

/-- The divisor column from the variance column: sqrt (var + eps) + eps. -/
def denCol (var : Col) (e : Ideal .f32) : Col := addf (sqrt (addf var (broadcast S1024x1 e))) (broadcast S1024x1 sEps)

/-- The gain times the centred tile over the divisor. -/
def scaled (c : Tile) (dn : Col) (g : Lanes) : Tile := divf (mulf (rows g) c) (spread dn)

/-- The normalisation from the centred tile and the sums of its squares. -/
def lnT (c : Tile) (ss : FVec Ideal S1024 .f32) (g b : Lanes) : Tile :=
  addf (scaled c (denCol (over (col ss) s256) sEps) g) (rows b)

theorem lnT_apply (c : Tile) (ss : FVec Ideal S1024 .f32) (g b : Lanes) (p : Fin 1024) (q : Fin 256) :
    lnT c ss g b (ix2 p q) = lnOf (fun k => c (ix2 p k)) (ss (ix1 p)) (fun n => g (ix1 n)) (fun n => b (ix1 n)) q := by
  show Ideal.div (rows g (ix2 p q) * c (ix2 p q)) (spread (denCol (over (col ss) s256) sEps) (ix2 p q)) + rows b (ix2 p q) = _
  rw [spread_apply, rows_apply, rows_apply]
  show Ideal.div (g (ix1 q) * c (ix2 p q)) (Ideal.sqrt (Ideal.div (col ss (ix2 p (0 : Fin 1))) w256 + wEps) + wEps) + b (ix1 q) = _
  rw [col_apply]
  rfl

/-- The normalisation of every row of a tile. -/
theorem lnFull_apply (M : Tile) (g b : Lanes) (p : Fin 1024) (q : Fin 256) :
    lnT (ctrT M) (ssqT (ctrT M)) g b (ix2 p q)
      = rowLN (fun n => M (ix2 p n)) (fun n => g (ix1 n)) (fun n => b (ix1 n)) q := by
  rw [lnT_apply, ssqT_apply]
  simp only [ctrT_apply]
  rfl

end Cert.KernelIdeal.Tile

end
-- ==== Proof.KernelBody.lean ====
/-
  The two tiles the body stores, read at an entry.

  The body's intermediate values are compositions of the building blocks of the tile (the product with a slice of a
  weight matrix, the centring of every row, the sums of squares along the lanes, the normalisation): the first part of
  this file says which, one equation per intermediate value, each holding by unfolding.  The slices of the weight
  matrices and of the gain and offset vectors are rectangles of 256 lanes starting at lane 0, 256, 512 or 768, read here
  at an entry.  With these the stored cell-state tile at (p, q) is the new cell state of row p of the three loaded
  tiles at lane q, and the stored output tile at (p, q) the new output of that row.
-/
import proofs.«109614_j44676249813258_1_alg».proof.Proof.KernelTile

noncomputable section

open scoped BigOperators

namespace Cert.KernelIdeal.Tile

open Cert.KernelIdeal Cert.KernelIdeal.Gen Idealize.ShloMosaic Idealize.ShloMosaic.ValueIdx Cert.LstmSpec

/-! ## The body's intermediate values as compositions of the building blocks -/

variable (x : Vec Ideal S1024x256 .f32) (w : Vec Ideal S256x256 .f32) (g b g' b' : Vec Ideal S256 .f32)
variable (xb : FVec Ideal S1024x256 .bf16) (wb : FVec Ideal S256x256 .bf16)
variable (A B C D : FVec Ideal S1024x256 .f32) (ss : FVec Ideal S1024 .f32)

theorem pay2_fold : k0_pay2 (F := Ideal) x = truncf .bf16 x bitsLt_bf16_f32 := rfl
theorem pay3_fold : k0_pay3 (F := Ideal) x = truncf .bf16 x bitsLt_bf16_f32 := rfl
theorem pay11_fold : k0_pay11 (F := Ideal) w = truncf .bf16 w bitsLt_bf16_f32 := rfl
theorem pay4_fold : k0_pay4 (F := Ideal) x w = mm (k0_pay3 x) (truncf .bf16 w bitsLt_bf16_f32) := rfl
theorem pay5_fold : k0_pay5 (F := Ideal) x w g b
    = lnT (ctrT (mm (k0_pay2 x) (truncf .bf16 w bitsLt_bf16_f32))) (ssqT (ctrT (mm (k0_pay2 x) (truncf .bf16 w bitsLt_bf16_f32)))) g b := rfl
theorem pay6_fold : k0_pay6 (F := Ideal) A B g b = addf B (lnT (ctrT A) (ssqT (ctrT A)) g b) := rfl
theorem pay7_fold : k0_pay7 (F := Ideal) xb w = mm xb (truncf .bf16 w bitsLt_bf16_f32) := rfl
theorem pay8_fold : k0_pay8 (F := Ideal) xb w = ctrT (mm xb (truncf .bf16 w bitsLt_bf16_f32)) := rfl
theorem pay9_fold : k0_pay9 (F := Ideal) xb w = ssqT (k0_pay8 xb w) := rfl
theorem pay10_fold : k0_pay10 (F := Ideal) A g b B ss g' b'
    = addf (lnT B ss g b) (lnT (ctrT A) (ssqT (ctrT A)) g' b') := rfl
theorem pay12_fold : k0_pay12 (F := Ideal) xb wb g b = lnT (ctrT (mm xb wb)) (ssqT (ctrT (mm xb wb))) g b := rfl
theorem pay13_fold : k0_pay13 (F := Ideal) xb w = ctrT (mm xb (truncf .bf16 w bitsLt_bf16_f32)) := rfl
theorem pay14_fold : k0_pay14 (F := Ideal) xb w = over (col (ssqT (k0_pay13 xb w))) s256 := rfl
theorem pay15_fold : k0_pay15 (F := Ideal) A g b B (over (col ss) s256) sEps = addf A (lnT B ss g b) := rfl
theorem pay16_fold : k0_pay16 (F := Ideal) xb w = mm xb (truncf .bf16 w bitsLt_bf16_f32) := rfl
theorem pay17_fold : k0_pay17 (F := Ideal) xb w g
    = scaled (ctrT (mm xb (truncf .bf16 w bitsLt_bf16_f32)))
        (denCol (over (col (ssqT (ctrT (mm xb (truncf .bf16 w bitsLt_bf16_f32))))) s256) sEps) g := rfl
theorem pay18_fold : k0_pay18 (F := Ideal) b = rows b := rfl
theorem pay19_fold : k0_pay19 (F := Ideal) A (scaled B (denCol (over (col ss) s256) sEps) g) (rows b) g' b'
    = logistic (addf (lnT B ss g b) (lnT (ctrT A) (ssqT (ctrT A)) g' b')) := rfl
theorem pay20_fold : k0_pay20 (F := Ideal) x A B C = addf (mulf (logistic B) x) (mulf (logistic A) (tanh C)) := rfl
theorem pay21_fold : k0_pay21 (F := Ideal) x A B C = ctrT (k0_pay20 x A B C) := rfl
theorem pay22_fold : k0_pay22 (F := Ideal) x A B C = col (ssqT (k0_pay21 x A B C)) := rfl
theorem pay1_fold : k0_pay1 (F := Ideal) A g b B (col ss) s256 = mulf A (tanh (lnT B ss g b)) := rfl

theorem logisticT_apply (v : FVec Ideal S1024x256 .f32) (i : S1024x256.Idx) : logistic v i = Ideal.logistic (v i) := rfl
theorem tanhT_apply (v : FVec Ideal S1024x256 .f32) (i : S1024x256.Idx) : tanh v i = Ideal.tanh (v i) := rfl

/-! ## The slices of the weights, gains and offsets -/

theorem hz2 : (![0, 0] : Fin 2 → ℕ) = fun _ => 0 := funext fun a => by fin_cases a <;> rfl
theorem hz1 : (![0] : Fin 1 → ℕ) = fun _ => 0 := funext fun a => by fin_cases a <;> rfl

/-- A 256-lane slice of a weight matrix from lane `o` reads, at (k, n), the matrix at (k, o + n). -/
theorem ldW (o : ℕ) (ho : o + 256 ≤ 1024) (inb : ∀ a, (![0, o] : Fin 2 → ℕ) a + S256x256.size a ≤ S256x1024.size a)
    (X : Vec Ideal S256x1024 .f32) (k n : Fin 256) :
    View.ld X (Rect.unit (s := S256x1024) ![0, o] S256x256.size inb) (ix2 k n) = X (ix2 k (lane o ho n)) :=
  congrArg X (funext fun a => Fin.ext (by
    match a with
    | ⟨0, _⟩ => show 0 + 1 * k.val = k.val; omega
    | ⟨1, _⟩ => show o + 1 * n.val = o + n.val; omega))

/-- A 256-lane slice of a gain or offset vector from lane `o` reads, at n, the vector at o + n. -/
theorem ldG (o : ℕ) (ho : o + 256 ≤ 1024) (inb : ∀ a, (![o] : Fin 1 → ℕ) a + S256.size a ≤ S1024.size a)
    (X : Vec Ideal S1024 .f32) (n : Fin 256) :
    View.ld X (Rect.unit (s := S1024) ![o] S256.size inb) (ix1 n) = X (ix1 (lane o ho n)) :=
  congrArg X (funext fun a => Fin.ext (by
    match a with
    | ⟨0, _⟩ => show o + 1 * n.val = o + n.val; omega))

variable (X : Vec Ideal S256x1024 .f32) (Y : Vec Ideal S1024 .f32) (k n : Fin 256)

theorem ldW0 : View.ld X r0_1 (ix2 k n) = X (ix2 k (lane 0 (by decide) n)) := ldW 0 _ _ X k n
theorem ldW1 : View.ld X r0_3 (ix2 k n) = X (ix2 k (lane 256 (by decide) n)) := ldW 256 _ _ X k n
theorem ldW2 : View.ld X r0_5 (ix2 k n) = X (ix2 k (lane 512 (by decide) n)) := ldW 512 _ _ X k n
theorem ldW3 : View.ld X r0_7 (ix2 k n) = X (ix2 k (lane 768 (by decide) n)) := ldW 768 _ _ X k n
theorem ldG0 : View.ld Y r0_2 (ix1 n) = Y (ix1 (lane 0 (by decide) n)) := ldG 0 _ _ Y n
theorem ldG1 : View.ld Y r0_4 (ix1 n) = Y (ix1 (lane 256 (by decide) n)) := ldG 256 _ _ Y n
theorem ldG2 : View.ld Y r0_6 (ix1 n) = Y (ix1 (lane 512 (by decide) n)) := ldG 512 _ _ Y n
theorem ldG3 : View.ld Y r0_8 (ix1 n) = Y (ix1 (lane 768 (by decide) n)) := ldG 768 _ _ Y n

/-! ## The stored tiles at an entry -/

/-- The stored cell-state tile at (p, q): the new cell state of row p at lane q. -/
theorem out12_apply (x0 x1 x2 : Vec Ideal S1024x256 .f32) (x3 x4 : Vec Ideal S256x1024 .f32) (x5 x6 x7 x8 : Vec Ideal S1024 .f32)
    (x9 x10 : Vec Ideal S256 .f32) (p : Fin 1024) (q : Fin 256) :
    out0_12 (F := Ideal) x0 x1 x2 x3 x4 x5 x6 x7 x8 x9 x10 (ix2 p q)
      = cNew (fun k => x0 (ix2 p k)) (fun k => x1 (ix2 p k)) (fun n => x2 (ix2 p n)) x3 x4 x5 x6 x7 x8 q := by
  unfold out0_12
  rw [View.canon_unit_zero hz2]
  simp only [View.ld_unit_zero (S := S1024x256) hz2, pay2_fold, pay3_fold, pay11_fold, pay4_fold, pay5_fold, pay6_fold,
    pay7_fold, pay8_fold, pay9_fold, pay10_fold, pay12_fold, pay13_fold, pay14_fold, pay15_fold, pay20_fold]
  simp only [addf_apply, mulf_apply, logisticT_apply, tanhT_apply, lnFull_apply, mm_apply, truncf_apply]
  simp only [ldW0 x3, ldW1 x3, ldW2 x3, ldW3 x3, ldW0 x4, ldW1 x4, ldW2 x4, ldW3 x4, ldG0 x5, ldG1 x5, ldG2 x5, ldG3 x5, ldG0 x6, ldG1 x6, ldG2 x6, ldG3 x6, ldG0 x7, ldG1 x7, ldG2 x7, ldG3 x7, ldG0 x8, ldG1 x8, ldG2 x8, ldG3 x8]
  rfl

/-- The stored output tile at (p, q): the new output of row p at lane q. -/
theorem out11_apply (x0 x1 x2 : Vec Ideal S1024x256 .f32) (x3 x4 : Vec Ideal S256x1024 .f32) (x5 x6 x7 x8 : Vec Ideal S1024 .f32)
    (x9 x10 : Vec Ideal S256 .f32) (p : Fin 1024) (q : Fin 256) :
    out0_11 (F := Ideal) x0 x1 x2 x3 x4 x5 x6 x7 x8 x9 x10 (ix2 p q)
      = hNew (fun k => x0 (ix2 p k)) (fun k => x1 (ix2 p k)) (fun n => x2 (ix2 p n)) x3 x4 x5 x6 x7 x8 x9 x10 q := by
  unfold out0_11
  rw [View.canon_unit_zero hz2]
  simp only [View.ld_unit_zero (S := S1024x256) hz2, View.ld_unit_zero (S := S256) hz1, pay2_fold, pay3_fold, pay11_fold,
    pay4_fold, pay5_fold, pay6_fold, pay7_fold, pay8_fold, pay9_fold, pay10_fold, pay12_fold, pay13_fold, pay14_fold,
    pay15_fold, pay16_fold, pay17_fold, pay18_fold, pay19_fold, pay20_fold, pay21_fold, pay22_fold, pay1_fold]
  simp only [addf_apply, mulf_apply, logisticT_apply, tanhT_apply, lnFull_apply, mm_apply, truncf_apply]
  simp only [ldW0 x3, ldW1 x3, ldW2 x3, ldW3 x3, ldW0 x4, ldW1 x4, ldW2 x4, ldW3 x4, ldG0 x5, ldG1 x5, ldG2 x5, ldG3 x5, ldG0 x6, ldG1 x6, ldG2 x6, ldG3 x6, ldG0 x7, ldG1 x7, ldG2 x7, ldG3 x7, ldG0 x8, ldG1 x8, ldG2 x8, ldG3 x8]
  rfl

end Cert.KernelIdeal.Tile

end
-- ==== Proof.SpecArrays.lean ====
/-
  The two results as whole arrays: entry (r, u) of the new cell states and of the new outputs is the row function of
  the specification applied to row r of the inputs, the previous outputs and the previous cell states, at lane u.
-/
import proofs.«109614_j44676249813258_1_alg».proof.Proof.Spec

noncomputable section

namespace Cert.LstmSpec

open Idealize.ShloMosaic Idealize.ShloMosaic.ValueIdx

/-- Row r of a [65536, 256] array. -/
def rowOf (X : (⟨2, ![65536, 256]⟩ : Shape).Idx → EReal) (r : Fin 65536) (k : Fin 256) : EReal := X (ix2 r k)

/-- The new cell states of all rows. -/
def cArr (X H C : (⟨2, ![65536, 256]⟩ : Shape).Idx → EReal) (K R : (⟨2, ![256, 1024]⟩ : Shape).Idx → EReal)
    (g1 b1 g2 b2 : (⟨1, ![1024]⟩ : Shape).Idx → EReal) : (⟨2, ![65536, 256]⟩ : Shape).Idx → EReal :=
  fun i => cNew (rowOf X (i 0)) (rowOf H (i 0)) (rowOf C (i 0)) K R g1 b1 g2 b2 (i 1)

/-- The new outputs of all rows. -/
def hArr (X H C : (⟨2, ![65536, 256]⟩ : Shape).Idx → EReal) (K R : (⟨2, ![256, 1024]⟩ : Shape).Idx → EReal)
    (g1 b1 g2 b2 : (⟨1, ![1024]⟩ : Shape).Idx → EReal) (g3 b3 : (⟨1, ![256]⟩ : Shape).Idx → EReal) :
    (⟨2, ![65536, 256]⟩ : Shape).Idx → EReal :=
  fun i => hNew (rowOf X (i 0)) (rowOf H (i 0)) (rowOf C (i 0)) K R g1 b1 g2 b2 g3 b3 (i 1)

end Cert.LstmSpec

end
-- ==== Proof.KernelValue.lean ====
/-
  From the tiles to the arrays.

  Grid point t works on rows t * 1024 ... t * 1024 + 1023: the blocks of the three row inputs and of the two outputs are
  the 1024 x 256 rectangles at block row t, while the weights, gains and offsets are staged whole at every point.  So
  what point t writes back is the block of the new cell states (and of the new outputs) of ALL rows that its rectangle
  names, because an entry of those arrays depends on its own row only.  The 64 blocks tile the arrays, hence after the
  run the two output arrays are the row functions of the specification applied to every row.
-/
import proofs.«109614_j44676249813258_1_alg».proof.Proof.Gen.KernelIdeal.Value
import proofs.«109614_j44676249813258_1_alg».proof.Proof.KernelBody
import proofs.«109614_j44676249813258_1_alg».proof.Proof.SpecArrays

noncomputable section

open scoped BigOperators

namespace Cert.KernelIdeal.RowValue

open Cert.KernelIdeal Cert.KernelIdeal.Gen Cert.KernelIdeal.Tile Idealize.ShloMosaic Idealize.ShloMosaic.TcCoe Idealize.SL.Sem
  Idealize.ShloMosaic.ValueIdx Cert.LstmSpec
open Idealize.ShloMosaic.Pipeline (Dat)

variable (m : (ℓ : Loc nD τ sig) → Buf (Elt Ideal) ℓ) (ρ : Dev nD → PrngReg)

/-! ## The argument arrays -/

abbrev aX (c : Dev nD) : S65536x256.Idx → EReal := m ((c : Thread nD τ).loc main_arg0)
abbrev aH (c : Dev nD) : S65536x256.Idx → EReal := m ((c : Thread nD τ).loc main_arg1)
abbrev aC (c : Dev nD) : S65536x256.Idx → EReal := m ((c : Thread nD τ).loc main_arg2)
abbrev aK (c : Dev nD) : S256x1024.Idx → EReal := m ((c : Thread nD τ).loc main_arg3)
abbrev aR (c : Dev nD) : S256x1024.Idx → EReal := m ((c : Thread nD τ).loc main_arg4)
abbrev aG1 (c : Dev nD) : S1024.Idx → EReal := m ((c : Thread nD τ).loc main_arg5)
abbrev aB1 (c : Dev nD) : S1024.Idx → EReal := m ((c : Thread nD τ).loc main_arg6)
abbrev aG2 (c : Dev nD) : S1024.Idx → EReal := m ((c : Thread nD τ).loc main_arg7)
abbrev aB2 (c : Dev nD) : S1024.Idx → EReal := m ((c : Thread nD τ).loc main_arg8)
abbrev aG3 (c : Dev nD) : S256.Idx → EReal := m ((c : Thread nD τ).loc main_arg9)
abbrev aB3 (c : Dev nD) : S256.Idx → EReal := m ((c : Thread nD τ).loc main_arg10)

/-- The new cell states of all rows, of the arrays as launched. -/
abbrev cAll (c : Dev nD) : S65536x256.Idx → EReal :=
  cArr (aX m c) (aH m c) (aC m c) (aK m c) (aR m c) (aG1 m c) (aB1 m c) (aG2 m c) (aB2 m c)

/-- The new outputs of all rows, of the arrays as launched. -/
abbrev hAll (c : Dev nD) : S65536x256.Idx → EReal :=
  hArr (aX m c) (aH m c) (aC m c) (aK m c) (aR m c) (aG1 m c) (aB1 m c) (aG2 m c) (aB2 m c) (aG3 m c) (aB3 m c)

/-! ## The index maps, decided over the 64 grid points -/

theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ win0_5.index t (0 : Fin 1) = 0 ∧ win0_6.index t (0 : Fin 1) = 0 ∧ win0_7.index t (0 : Fin 1) = 0
    ∧ win0_8.index t (0 : Fin 1) = 0 ∧ win0_9.index t (0 : Fin 1) = 0 ∧ win0_10.index t (0 : Fin 1) = 0
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- Row p of point t's tile is row t * 1024 + p of the arrays. -/
def row (t : Fin cfg0.N) (p : Fin 1024) : Fin 65536 :=
  ⟨t.val * 1024 + p.val, by have h := t.isLt; have hN : cfg0.N = 64 := N_0; have := p.isLt; omega⟩

/-! ## The blocks at a point -/

variable (c : Dev nD) (t : Fin cfg0.N)

theorem blkX (p : Fin 1024) (k : Fin 256) : iblk m c 0 t (ix2 p k) = aX m c (ix2 (row t p) k) := by
  obtain ⟨⟨e0, e1⟩, -⟩ := idx_facts t
  show aX m c (((cfg0.win 0).blk t).view.emb (ix2 p k)) = _
  refine congrArg (aX m c) (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 256 + 1 * k.val = k.val; rw [e1]; omega

theorem blkH (p : Fin 1024) (k : Fin 256) : iblk m c 1 t (ix2 p k) = aH m c (ix2 (row t p) k) := by
  obtain ⟨-, ⟨e0, e1⟩, -⟩ := idx_facts t
  show aH m c (((cfg0.win 1).blk t).view.emb (ix2 p k)) = _
  refine congrArg (aH m c) (funext fun a => Fin.ext ?_)
  match a with
  | ⟨0, _⟩ => show win0_1.index t (0 : Fin 2) * 1024 + 1 * p.val = t.val * 1024 + p.val; rw [e0]; omega
  | ⟨1, _⟩ => show win0_1.index t (1 : Fin 2) * 256 + 1 * k.val = k.val; rw [e1]; omega

theorem blkC (p : Fin 1024) (k : Fin 256) : iblk m c 2 t (ix2 p k) = aC m c (ix2 (row t p) k) := by
  obtain ⟨-, -, ⟨e0, e1⟩, -⟩ := idx_facts t
  show aC m c (((cfg0.win 2).blk t).view.emb (ix2 p k)) = _
  refine congrArg (aC m c) (funext fun a => Fin.ext ?_)
  match a with
  | ⟨0, _⟩ => show win0_2.index t (0 : Fin 2) * 1024 + 1 * p.val = t.val * 1024 + p.val; rw [e0]; omega
  | ⟨1, _⟩ => show win0_2.index t (1 : Fin 2) * 256 + 1 * k.val = k.val; rw [e1]; omega

theorem blkK : iblk m c 3 t = aK m c := by
  obtain ⟨-, -, -, ⟨e0, e1⟩, -⟩ := idx_facts t
  funext y
  show aK m c (((cfg0.win 3).blk t).view.emb y) = _
  refine congrArg (aK m c) (funext fun a => Fin.ext ?_)
  match a with
  | ⟨0, _⟩ => show win0_3.index t (0 : Fin 2) * 256 + 1 * (y 0).val = (y 0).val; rw [e0]; omega
  | ⟨1, _⟩ => show win0_3.index t (1 : Fin 2) * 1024 + 1 * (y 1).val = (y 1).val; rw [e1]; omega

theorem blkR : iblk m c 4 t = aR m c := by
  obtain ⟨-, -, -, -, ⟨e0, e1⟩, -⟩ := idx_facts t
  funext y
  show aR m c (((cfg0.win 4).blk t).view.emb y) = _
  refine congrArg (aR m c) (funext fun a => Fin.ext ?_)
  match a with
  | ⟨0, _⟩ => show win0_4.index t (0 : Fin 2) * 256 + 1 * (y 0).val = (y 0).val; rw [e0]; omega
  | ⟨1, _⟩ => show win0_4.index t (1 : Fin 2) * 1024 + 1 * (y 1).val = (y 1).val; rw [e1]; omega

theorem blkG1 : iblk m c 5 t = aG1 m c := by
  obtain ⟨-, -, -, -, -, e, -⟩ := idx_facts t
  funext y
  show aG1 m c (((cfg0.win 5).blk t).view.emb y) = _
  refine congrArg (aG1 m c) (funext fun a => Fin.ext ?_)
  match a with
  | ⟨0, _⟩ => show win0_5.index t (0 : Fin 1) * 1024 + 1 * (y 0).val = (y 0).val; rw [e]; omega

theorem blkB1 : iblk m c 6 t = aB1 m c := by
  obtain ⟨-, -, -, -, -, -, e, -⟩ := idx_facts t
  funext y
  show aB1 m c (((cfg0.win 6).blk t).view.emb y) = _
  refine congrArg (aB1 m c) (funext fun a => Fin.ext ?_)
  match a with
  | ⟨0, _⟩ => show win0_6.index t (0 : Fin 1) * 1024 + 1 * (y 0).val = (y 0).val; rw [e]; omega

theorem blkG2 : iblk m c 7 t = aG2 m c := by
  obtain ⟨-, -, -, -, -, -, -, e, -⟩ := idx_facts t
  funext y
  show aG2 m c (((cfg0.win 7).blk t).view.emb y) = _
  refine congrArg (aG2 m c) (funext fun a => Fin.ext ?_)
  match a with
  | ⟨0, _⟩ => show win0_7.index t (0 : Fin 1) * 1024 + 1 * (y 0).val = (y 0).val; rw [e]; omega

theorem blkB2 : iblk m c 8 t = aB2 m c := by
  obtain ⟨-, -, -, -, -, -, -, -, e, -⟩ := idx_facts t
  funext y
  show aB2 m c (((cfg0.win 8).blk t).view.emb y) = _
  refine congrArg (aB2 m c) (funext fun a => Fin.ext ?_)
  match a with
  | ⟨0, _⟩ => show win0_8.index t (0 : Fin 1) * 1024 + 1 * (y 0).val = (y 0).val; rw [e]; omega

theorem blkG3 : iblk m c 9 t = aG3 m c := by
  obtain ⟨-, -, -, -, -, -, -, -, -, e, -⟩ := idx_facts t
  funext y
  show aG3 m c (((cfg0.win 9).blk t).view.emb y) = _
  refine congrArg (aG3 m c) (funext fun a => Fin.ext ?_)
  match a with
  | ⟨0, _⟩ => show win0_9.index t (0 : Fin 1) * 256 + 1 * (y 0).val = (y 0).val; rw [e]; omega

theorem blkB3 : iblk m c 10 t = aB3 m c := by
  obtain ⟨-, -, -, -, -, -, -, -, -, -, e, -⟩ := idx_facts t
  funext y
  show aB3 m c (((cfg0.win 10).blk t).view.emb y) = _
  refine congrArg (aB3 m c) (funext fun a => Fin.ext ?_)
  match a with
  | ⟨0, _⟩ => show win0_10.index t (0 : Fin 1) * 256 + 1 * (y 0).val = (y 0).val; rw [e]; omega

/-- The three row inputs of point t, row p: the rows t * 1024 + p of the arrays. -/
theorem rowsX (p : Fin 1024) : (fun k => iblk m c 0 t (ix2 p k)) = rowOf (aX m c) (row t p) := funext fun k => blkX m c t p k
theorem rowsH (p : Fin 1024) : (fun k => iblk m c 1 t (ix2 p k)) = rowOf (aH m c) (row t p) := funext fun k => blkH m c t p k
theorem rowsC (p : Fin 1024) : (fun k => iblk m c 2 t (ix2 p k)) = rowOf (aC m c) (row t p) := funext fun k => blkC m c t p k

/-! ## What a point writes back -/

/-- Point t writes back block t of the new cell states of all rows. -/
theorem flushed12_eq : (dats m 0 c).flushed 12 t = ((cfg0.win 12).blk t).view.read (Elt Ideal) (cAll m c) := by
  rw [Value.flushed12]
  obtain ⟨-, -, -, -, -, -, -, -, -, -, -, -, ⟨e0, e1⟩⟩ := idx_facts t
  funext j
  obtain ⟨p, q, rfl⟩ : ∃ (p : Fin 1024) (q : Fin 256), j = ix2 p q := ⟨j 0, j 1, eq_ix2 j⟩
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q)
    = cAll m c (((cfg0.win 12).blk t).view.emb (ix2 p q))
  have hemb : ((cfg0.win 12).blk t).view.emb (ix2 p q) = ix2 (row t p) q := by
    funext a; apply Fin.ext
    match a with
    | ⟨0, _⟩ => show win0_12.index t (0 : Fin 2) * 1024 + 1 * p.val = t.val * 1024 + p.val; rw [e0]; omega
    | ⟨1, _⟩ => show win0_12.index t (1 : Fin 2) * 256 + 1 * q.val = q.val; rw [e1]; omega
  rw [hemb]
  refine (out12_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  rw [rowsX, rowsH, rowsC, blkK, blkR, blkG1, blkB1, blkG2, blkB2]
  rfl

/-- Point t writes back block t of the new outputs of all rows. -/
theorem flushed11_eq : (dats m 0 c).flushed 11 t = ((cfg0.win 11).blk t).view.read (Elt Ideal) (hAll m c) := by
  rw [Value.flushed11]
  obtain ⟨-, -, -, -, -, -, -, -, -, -, -, ⟨e0, e1⟩, -⟩ := idx_facts t
  funext j
  obtain ⟨p, q, rfl⟩ : ∃ (p : Fin 1024) (q : Fin 256), j = ix2 p q := ⟨j 0, j 1, eq_ix2 j⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q)
    = hAll m c (((cfg0.win 11).blk t).view.emb (ix2 p q))
  have hemb : ((cfg0.win 11).blk t).view.emb (ix2 p q) = ix2 (row t p) q := by
    funext a; apply Fin.ext
    match a with
    | ⟨0, _⟩ => show win0_11.index t (0 : Fin 2) * 1024 + 1 * p.val = t.val * 1024 + p.val; rw [e0]; omega
    | ⟨1, _⟩ => show win0_11.index t (1 : Fin 2) * 256 + 1 * q.val = q.val; rw [e1]; omega
  rw [hemb]
  refine (out11_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  rw [rowsX, rowsH, rowsC, blkK, blkR, blkG1, blkB1, blkG2, blkB2, blkG3, blkB3]
  rfl

/-! ## The blocks tile the arrays -/

theorem mem_blk12 (i : S65536x256.Idx) :
    i ∈ ((cfg0.win 12).blk t).view.set ↔ ∀ a : Fin 2, win0_12.index t a * S1024x256.size a ≤ (i a).val
      ∧ (i a).val < win0_12.index t a * S1024x256.size a + S1024x256.size a := by
  show i ∈ ((View.whole main_v0_1).slice (win0_12.rect t)).set ↔ _
  rw [View.set_slice_whole, Rect.mem_set_unit]
  exact Iff.rfl

theorem mem_blk11 (i : S65536x256.Idx) :
    i ∈ ((cfg0.win 11).blk t).view.set ↔ ∀ a : Fin 2, win0_11.index t a * S1024x256.size a ≤ (i a).val
      ∧ (i a).val < win0_11.index t a * S1024x256.size a + S1024x256.size a := by
  show i ∈ ((View.whole main_v0_0).slice (win0_11.rect t)).set ↔ _
  rw [View.set_slice_whole, Rect.mem_set_unit]
  exact Iff.rfl

/-- The point whose tile holds row r: r / 1024. -/
def pointOf (i : S65536x256.Idx) : Fin cfg0.N :=
  ⟨(i 0).val / 1024, by have h : (i 0).val < 65536 := (i 0).isLt; have hN : cfg0.N = 64 := N_0; omega⟩

theorem cover12 (i : S65536x256.Idx) : ∃ t : Fin cfg0.N, (cfg0.win 12).flush t = true ∧ i ∈ ((cfg0.win 12).blk t).view.set := by
  refine ⟨pointOf i, flush0_12 _, ?_⟩
  obtain ⟨-, -, -, -, -, -, -, -, -, -, -, -, ⟨e0, e1⟩⟩ := idx_facts (pointOf i)
  rw [mem_blk12]
  intro a
  have h0 : (i 0).val < 65536 := (i 0).isLt
  have h1 : (i 1).val < 256 := (i 1).isLt
  match a with
  | ⟨0, _⟩ =>
    show win0_12.index (pointOf i) (0 : Fin 2) * 1024 ≤ (i 0).val ∧ (i 0).val < win0_12.index (pointOf i) (0 : Fin 2) * 1024 + 1024
    rw [e0]; show (i 0).val / 1024 * 1024 ≤ (i 0).val ∧ (i 0).val < (i 0).val / 1024 * 1024 + 1024; omega
  | ⟨1, _⟩ =>
    show win0_12.index (pointOf i) (1 : Fin 2) * 256 ≤ (i 1).val ∧ (i 1).val < win0_12.index (pointOf i) (1 : Fin 2) * 256 + 256
    rw [e1]; omega

theorem cover11 (i : S65536x256.Idx) : ∃ t : Fin cfg0.N, (cfg0.win 11).flush t = true ∧ i ∈ ((cfg0.win 11).blk t).view.set := by
  refine ⟨pointOf i, flush0_11 _, ?_⟩
  obtain ⟨-, -, -, -, -, -, -, -, -, -, -, ⟨e0, e1⟩, -⟩ := idx_facts (pointOf i)
  rw [mem_blk11]
  intro a
  have h0 : (i 0).val < 65536 := (i 0).isLt
  have h1 : (i 1).val < 256 := (i 1).isLt
  match a with
  | ⟨0, _⟩ =>
    show win0_11.index (pointOf i) (0 : Fin 2) * 1024 ≤ (i 0).val ∧ (i 0).val < win0_11.index (pointOf i) (0 : Fin 2) * 1024 + 1024
    rw [e0]; show (i 0).val / 1024 * 1024 ≤ (i 0).val ∧ (i 0).val < (i 0).val / 1024 * 1024 + 1024; omega
  | ⟨1, _⟩ =>
    show win0_11.index (pointOf i) (1 : Fin 2) * 256 ≤ (i 1).val ∧ (i 1).val < win0_11.index (pointOf i) (1 : Fin 2) * 256 + 256
    rw [e1]; omega

/-! ## The arrays after the run -/

theorem final12 : (dats m 0 c).arrAt 12 cfg0.N = cAll m c :=
  (dats m 0 c).arrAt_eq_of_cover 12 (cAll m c) (fun t _ => flushed12_eq m c t) (cover12)

theorem final11 : (dats m 0 c).arrAt 11 cfg0.N = hAll m c :=
  (dats m 0 c).arrAt_eq_of_cover 11 (hAll m c) (fun t _ => flushed11_eq m c t) (cover11)

/-- The kernel's run: the two output arrays end at the new outputs and the new cell states of all rows, the arguments
    unchanged. -/
theorem run : θ_run defs (onTc (τ := τ) (main (F := Ideal))) ⟨m, fun _ => 0, ρ⟩ fun r => ∀ c : Dev nD,
      r.2.mem ((c : Thread nD τ).loc main_v0_0) = hAll m c
      ∧ r.2.mem ((c : Thread nD τ).loc main_v0_1) = cAll m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2.1.trans (final12 m c), (h c).2.2⟩)
    (Value.run_blocks m ρ)

end Cert.KernelIdeal.RowValue

end
-- ==== Proof.LibSplitLanes.lean ====
/-
  A shape cast that splits the trailing axis of a matrix, read at an index written by its coordinates.

  An `[a, N]` array viewed row-major as `[a, n1, n2]` with `N = n1 · n2` reads, at `(i, s, t)`, the operand at
  `(i, s · n2 + t)`: both sit at row-major position `i · N + s · n2 + t`. Generic in the extents.
-/
import Idealize.ShloMosaic.Lib.Pipeline.Value
import Idealize.ShloMosaic.Lib.ValueIdx

namespace Cert.LibSplitLanes

open Idealize.ShloMosaic Idealize.ShloMosaic.ValueIdx

variable {α : Type}

/-- An `[a, N]` array with its trailing axis split into `[n1, n2]` reads, at `(i, s, t)`, the operand at `(i, q)` for
    `q = s · n2 + t`. -/
theorem shapeCast_ad_abc_apply {a n1 n2 N : ℕ} (x : (⟨2, ![a, N]⟩ : Shape).Idx → α)
    (h : (⟨2, ![a, N]⟩ : Shape).ShapeCasts ⟨3, ![a, n1, n2]⟩) (hN : N = n1 * n2)
    (i : Fin a) (s : Fin n1) (t : Fin n2) (q : Fin N) (hq : q.val = s.val * n2 + t.val) :
    shapeCast ⟨3, ![a, n1, n2]⟩ x h (ix3 i s t) = x (ix2 i q) :=
  shapeCast_apply x h _ _ (by
    rw [Shape.rowMajor_val_three, Shape.rowMajor_val_two]
    show i.val * N + q.val = (i.val * n1 + s.val) * n2 + t.val
    rw [hq, hN]
    ring)

/-- The way back: an `[a, n1, n2]` array with its two trailing axes merged into one of extent `N = n1 · n2` reads, at
    `(i, q)` with `q = s · n2 + t`, the operand at `(i, s, t)`. -/
theorem shapeCast_abc_ad_apply {a n1 n2 N : ℕ} (x : (⟨3, ![a, n1, n2]⟩ : Shape).Idx → α)
    (h : (⟨3, ![a, n1, n2]⟩ : Shape).ShapeCasts ⟨2, ![a, N]⟩) (hN : N = n1 * n2)
    (i : Fin a) (q : Fin N) (s : Fin n1) (t : Fin n2) (hq : q.val = s.val * n2 + t.val) :
    shapeCast ⟨2, ![a, N]⟩ x h (ix2 i q) = x (ix3 i s t) :=
  shapeCast_apply x h _ _ (by
    rw [Shape.rowMajor_val_three, Shape.rowMajor_val_two]
    show (i.val * n1 + s.val) * n2 + t.val = i.val * N + q.val
    rw [hq, hN]
    ring)

end Cert.LibSplitLanes
-- ==== Proof.LibHostRows.lean ====
/-
  Host operations of a layer normalisation over the trailing axis, read at an index written by its coordinates, at the
  ideal values and generic in the extents.

  A reference written with jnp normalises along the last axis of an [a, b, c] or an [a, c] array: it sums along that
  axis, puts the axis back with extent one (a broadcast_in_dim to [a, b, 1] or [a, 1]), divides by a broadcast scalar,
  and lays the result along the axis again (a broadcast_in_dim to the full shape).  Gains and offsets arrive as [b, c]
  or [c] arrays laid along the leading axis.  Each of these operations is read here at a coordinate index:
  * the host's float sum along the last axis of a rank-3 and of a rank-2 array, as the initial value plus a plain sum;
  * the unit trailing axis put back, and the array with a unit trailing axis laid along that axis;
  * a [b, c] array laid along a new leading axis, in the two steps jnp prints ([b, c] -> [1, b, c] -> [a, b, c]);
  * a flat [N] array viewed as [b, c] with N = b * c;
  * the matrix product of an [a, k] and a [k, n] array (plain dimension numbers) as the sum over the shared axis.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-! ## Sums along the last axis -/

/-- The host's float sum of an [a, b, c] array along its last axis, at (r, g): the initial value plus the sum over the
    last axis of the entries (r, g, k). -/
theorem hostSumLast3_apply {a b c : ℕ} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (r : Fin a) (g : Fin b) :
    Host.reduceAdd x init h' hu (ix2 r g) = init (Shape.Idx.first hu) + ∑ k : Fin c, x (ix3 r g k) := by
  refine (hostReduceAdd_apply x init h' hu (ix2 r g)).trans ?_
  refine (Ideal.hostReduceAdd_single h' h x _ (ix2 r g)).trans ?_
  show init (Shape.Idx.first hu) + ∑ k : Fin c, _ = _
  exact congrArg (init (Shape.Idx.first hu) + ·) (Finset.sum_congr rfl fun k _ => congrArg x (funext fun d => Fin.ext (by
    match d with
    | ⟨0, _⟩ => rfl
    | ⟨1, _⟩ => rfl
    | ⟨2, _⟩ => rfl)))

/-- The host's float sum of an [a, c] array along its last axis, at row r. -/
theorem hostSumLast2_apply {a c : ℕ} {u : Shape} (x : FVec Ideal ⟨2, ![a, c]⟩ .f32) (init : u.Idx → Ideal .f32)
    (h' : (⟨2, ![a, c]⟩ : Shape).ReducesTo [1] ⟨1, ![a]⟩) (h : (⟨2, ![a, c]⟩ : Shape).Reduces [1] ⟨1, ![a]⟩)
    (hu : 0 < u.numel) (r : Fin a) :
    Host.reduceAdd x init h' hu (ix1 r) = init (Shape.Idx.first hu) + ∑ k : Fin c, x (ix2 r k) := by
  refine (hostReduceAdd_apply x init h' hu (ix1 r)).trans ?_
  refine (Ideal.hostReduceAdd_single h' h x _ (ix1 r)).trans ?_
  show init (Shape.Idx.first hu) + ∑ k : Fin c, _ = _
  exact congrArg (init (Shape.Idx.first hu) + ·) (Finset.sum_congr rfl fun k _ => congrArg x (funext fun d => Fin.ext (by
    match d with
    | ⟨0, _⟩ => rfl
    | ⟨1, _⟩ => rfl)))

/-! ## The unit trailing axis -/

/-- An [a, b] array given a unit trailing axis reads, at (r, g, 0), the operand at (r, g). -/
theorem addLast3_apply {a b : ℕ} (x : (⟨2, ![a, b]⟩ : Shape).Idx → α)
    (h : (⟨2, ![a, b]⟩ : Shape).BroadcastsInDim ⟨3, ![a, b, 1]⟩ ![0, 1]) (r : Fin a) (g : Fin b) (z : Fin 1) :
    broadcastInDim ⟨3, ![a, b, 1]⟩ ![0, 1] h x (ix3 r g z) = x (ix2 r g) := by
  refine broadcastInDim_apply ![0, 1] h x (ix3 r g z) (ix2 r g) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl

/-- An [a] array given a unit trailing axis reads, at (r, 0), the operand at r. -/
theorem addLast2_apply {a : ℕ} (x : (⟨1, ![a]⟩ : Shape).Idx → α)
    (h : (⟨1, ![a]⟩ : Shape).BroadcastsInDim ⟨2, ![a, 1]⟩ ![0]) (r : Fin a) (z : Fin 1) :
    broadcastInDim ⟨2, ![a, 1]⟩ ![0] h x (ix2 r z) = x (ix1 r) := by
  refine broadcastInDim_apply ![0] h x (ix2 r z) (ix1 r) fun ax => ?_
  match ax with
  | ⟨0, _⟩ =>
    show r.val = if a = 1 then 0 else r.val
    split
    · have := r.isLt; omega
    · rfl

/-- An [a, b, 1] array laid along its last axis reads, at (r, g, k), the operand at (r, g, 0). -/
theorem alongLast3_apply {a b c : ℕ} (x : (⟨3, ![a, b, 1]⟩ : Shape).Idx → α)
    (h : (⟨3, ![a, b, 1]⟩ : Shape).BroadcastsInDim ⟨3, ![a, b, c]⟩ ![0, 1, 2]) (r : Fin a) (g : Fin b) (k : Fin c) :
    broadcastInDim ⟨3, ![a, b, c]⟩ ![0, 1, 2] h x (ix3 r g k) = x (ix3 r g (0 : Fin 1)) := by
  refine broadcastInDim_apply ![0, 1, 2] h x (ix3 r g k) (ix3 r g (0 : Fin 1)) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl
  | ⟨2, _⟩ => rfl

/-- An [a, 1] array laid along its last axis reads, at (r, k), the operand at (r, 0). -/
theorem alongLast2_apply {a c : ℕ} (x : (⟨2, ![a, 1]⟩ : Shape).Idx → α)
    (h : (⟨2, ![a, 1]⟩ : Shape).BroadcastsInDim ⟨2, ![a, c]⟩ ![0, 1]) (r : Fin a) (k : Fin c) :
    broadcastInDim ⟨2, ![a, c]⟩ ![0, 1] h x (ix2 r k) = x (ix2 r (0 : Fin 1)) := by
  refine broadcastInDim_apply ![0, 1] h x (ix2 r k) (ix2 r (0 : Fin 1)) fun ax => ?_
  match ax with
  | ⟨0, _⟩ =>
    show r.val = if a = 1 then 0 else r.val
    split
    · have := r.isLt; omega
    · rfl
  | ⟨1, _⟩ => rfl

/-! ## A [b, c] array laid along a new leading axis -/

/-- A [b, c] array broadcast to [1, b, c] and then to [a, b, c] reads, at (r, g, k), the operand at (g, k). -/
theorem alongFirst3_apply {a b c : ℕ} (x : (⟨2, ![b, c]⟩ : Shape).Idx → α)
    (h1 : (⟨2, ![b, c]⟩ : Shape).BroadcastsInDim ⟨3, ![1, b, c]⟩ ![1, 2])
    (h2 : (⟨3, ![1, b, c]⟩ : Shape).BroadcastsInDim ⟨3, ![a, b, c]⟩ ![0, 1, 2]) (r : Fin a) (g : Fin b) (k : Fin c) :
    broadcastInDim ⟨3, ![a, b, c]⟩ ![0, 1, 2] h2 (broadcastInDim ⟨3, ![1, b, c]⟩ ![1, 2] h1 x) (ix3 r g k) = x (ix2 g k) := by
  refine (broadcastInDim_apply ![0, 1, 2] h2 _ (ix3 r g k) (ix3 (0 : Fin 1) g k) fun ax => ?_).trans ?_
  · match ax with
    | ⟨0, _⟩ => rfl
    | ⟨1, _⟩ =>
      show g.val = if b = 1 then 0 else g.val
      split
      · have := g.isLt; omega
      · rfl
    | ⟨2, _⟩ =>
      show k.val = if c = 1 then 0 else k.val
      split
      · have := k.isLt; omega
      · rfl
  · refine broadcastInDim_apply ![1, 2] h1 x (ix3 (0 : Fin 1) g k) (ix2 g k) fun ax => ?_
    match ax with
    | ⟨0, _⟩ =>
      show g.val = if b = 1 then 0 else g.val
      split
      · have := g.isLt; omega
      · rfl
    | ⟨1, _⟩ =>
      show k.val = if c = 1 then 0 else k.val
      split
      · have := k.isLt; omega
      · rfl

/-- A flat [N] array viewed as [b, c] reads, at (g, k), the operand at position q = g * c + k. -/
theorem shapeCast_n_bc_apply {b c N : ℕ} (x : (⟨1, ![N]⟩ : Shape).Idx → α)
    (h : (⟨1, ![N]⟩ : Shape).ShapeCasts ⟨2, ![b, c]⟩) (g : Fin b) (k : Fin c) (q : Fin N) (hq : q.val = g.val * c + k.val) :
    shapeCast ⟨2, ![b, c]⟩ x h (ix2 g k) = x (ix1 q) :=
  shapeCast_apply x h _ _ (by
    rw [Shape.rowMajor_val_two, Shape.rowMajor_val_one]
    show q.val = g.val * c + k.val
    exact hq)

/-! ## The matrix product -/

/-- The dimension numbers of a plain matrix product, whatever proof of well-formedness they carry. -/
theorem hostDot_apply {A K N : ℕ} (d : DotDims ⟨2, ![A, K]⟩ ⟨2, ![K, N]⟩ ⟨2, ![A, N]⟩) (hd : d = DotDims.plain A K N)
    (x : FVec Ideal ⟨2, ![A, K]⟩ .f32) (w : FVec Ideal ⟨2, ![K, N]⟩ .f32) (r : Fin A) (n : Fin N) :
    Host.dotGeneral d none x w (ix2 r n) = ∑ k : Fin K, x (ix2 r k) * w (ix2 k n) := by
  subst hd
  refine (Ideal.dotGeneral_apply (DotDims.plain A K N) none _ x w (ix2 r n)).trans ?_
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx (ix2 r n) ((contrEquiv1 (DotDims.plain A K N) K rfl rfl).symm k) = ix2 r k := by
    funext a
    match a with
    | ⟨0, _⟩ => rfl
    | ⟨1, _⟩ => exact Fin.ext hk
  have er : (DotDims.plain A K N).rhsIdx (ix2 r n) ((contrEquiv1 (DotDims.plain A K N) K rfl rfl).symm k) = ix2 k n := by
    funext a
    match a with
    | ⟨0, _⟩ => exact Fin.ext hk
    | ⟨1, _⟩ => rfl
  exact congrArg₂ (· * ·) (congrArg x el) (congrArg w er)

end Cert.LibHostRows

end
-- ==== Proof.RefRows.lean ====
/-
  The reference read one batch row at a time.

  The reference multiplies all rows by the whole weight matrices, views the [65536, 1024] products as [65536, 4, 256]
  (gate by gate), normalises along the last axis, picks the four gates by slicing, and normalises the new cell state
  along its lanes.  Its building blocks — sums along the last axis, the unit axis put back and laid out again, gains
  laid along the rows, the gate slices, the logistic function spelt 1 / (1 + exp (-x)) — are read here at an entry, the
  intermediate arrays of the run are recognised as compositions of the building blocks, and the two results are read
  as the row functions of the specification applied to one row of the arguments.  Lane n of gate g is lane g * 256 + n
  of the flat weight and gain arrays.
-/
import proofs.«109614_j44676249813258_1_alg».proof.Proof.Gen.ReferenceIdeal.Run
import proofs.«109614_j44676249813258_1_alg».proof.Proof.Spec
import proofs.«109614_j44676249813258_1_alg».proof.Proof.LibDense
import proofs.«109614_j44676249813258_1_alg».proof.Proof.LibSplitLanes
import proofs.«109614_j44676249813258_1_alg».proof.Proof.LibHostRows
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

open scoped BigOperators

namespace Cert.ReferenceIdeal.Rows

open Cert.ReferenceIdeal Cert.ReferenceIdeal.Gen Cert.ReferenceIdeal.Value Idealize.ShloMosaic Idealize.ShloMosaic.ValueIdx
  Idealize.ShloMosaic.StableHlo Cert.LstmSpec Cert.LibHostRows

abbrev T3 := FVec Ideal S65536x4x256 .f32
abbrev C3 := FVec Ideal S65536x4x1 .f32
abbrev T2 := FVec Ideal S65536x256 .f32
abbrev C2 := FVec Ideal S65536x1 .f32

/-- Lane n of gate g in the flat arrays. -/
def lane4 (g : Fin 4) (n : Fin 256) : Fin 1024 := ⟨g.val * 256 + n.val, by have := g.isLt; have := n.isLt; omega⟩

theorem lane4_zero (n : Fin 256) : lane4 (0 : Fin 4) n = lane 0 (by decide) n := Fin.ext (by show 0 * 256 + n.val = 0 + n.val; omega)
theorem lane4_one (n : Fin 256) : lane4 (1 : Fin 4) n = lane 256 (by decide) n := Fin.ext (by show 1 * 256 + n.val = 256 + n.val; omega)
theorem lane4_two (n : Fin 256) : lane4 (2 : Fin 4) n = lane 512 (by decide) n := Fin.ext (by show 2 * 256 + n.val = 512 + n.val; omega)
theorem lane4_three (n : Fin 256) : lane4 (3 : Fin 4) n = lane 768 (by decide) n := Fin.ext (by show 3 * 256 + n.val = 768 + n.val; omega)

/-! ## The building blocks over [65536, 4, 256] -/

def hsum3 (v : T3) : FVec Ideal S65536x4 .f32 :=
  Host.reduceAdd v (constant S_ .f32 0x00000000#32) reducesTo_S65536x4x256_S65536x4_d2 h_S_

theorem hsum3_apply (v : T3) (r : Fin 65536) (g : Fin 4) : hsum3 v (ix2 r g) = ∑ k : Fin 256, v (ix3 r g k) := by
  refine (hostSumLast3_apply v _ _ (by decide) h_S_ r g).trans ?_
  show Ideal.ofBits .f32 0x00000000#32 + _ = _
  rw [Ideal.ofBits_zero_f32, zero_add]

def hcol3 (s : FVec Ideal S65536x4 .f32) : C3 := broadcastInDim S65536x4x1 ![0, 1] bcast_S65536x4_S65536x4x1_0_1 s

theorem hcol3_apply (s : FVec Ideal S65536x4 .f32) (r : Fin 65536) (g : Fin 4) : hcol3 s (ix3 r g (0 : Fin 1)) = s (ix2 r g) :=
  addLast3_apply s _ r g 0

def hspl3 (w : BitVec 32) : C3 := broadcastInDim S65536x4x1 ![] bcast_S_S65536x4x1 (constant S_ .f32 w)

theorem hspl3_apply (w : BitVec 32) (i : S65536x4x1.Idx) : hspl3 w i = Ideal.ofBits .f32 w :=
  (broadcastInDim_scalar_apply _ _ i).trans rfl

def hspread3 (c : C3) : T3 := broadcastInDim S65536x4x256 ![0, 1, 2] bcast_S65536x4x1_S65536x4x256_0_1_2 c

theorem hspread3_apply (c : C3) (r : Fin 65536) (g : Fin 4) (k : Fin 256) : hspread3 c (ix3 r g k) = c (ix3 r g (0 : Fin 1)) :=
  alongLast3_apply c _ r g k

def hrows3 (gm : FVec Ideal S1024 .f32) : T3 :=
  broadcastInDim S65536x4x256 ![0, 1, 2] bcast_S1x4x256_S65536x4x256_0_1_2
    (broadcastInDim S1x4x256 ![1, 2] bcast_S4x256_S1x4x256_1_2 (shapeCast S4x256 gm shapeCasts_S1024_S4x256))

theorem hrows3_apply (gm : FVec Ideal S1024 .f32) (r : Fin 65536) (g : Fin 4) (k : Fin 256) :
    hrows3 gm (ix3 r g k) = gm (ix1 (lane4 g k)) :=
  (alongFirst3_apply _ _ _ r g k).trans (shapeCast_n_bc_apply gm _ g k (lane4 g k) rfl)

def hproj (x : FVec Ideal S65536x256 .f32) (w : FVec Ideal S256x1024 .f32) : T3 :=
  shapeCast S65536x4x256 (Host.dotGeneral dot_S65536x256_S256x1024_S65536x1024_1_0_0_1_n_n none x w) shapeCasts_S65536x1024_S65536x4x256

theorem hproj_apply (x : FVec Ideal S65536x256 .f32) (w : FVec Ideal S256x1024 .f32) (r : Fin 65536) (g : Fin 4) (n : Fin 256) :
    hproj x w (ix3 r g n) = ∑ k : Fin 256, x (ix2 r k) * w (ix2 k (lane4 g n)) :=
  (Cert.LibSplitLanes.shapeCast_ad_abc_apply (a := 65536) (n1 := 4) (n2 := 256) (N := 1024)
      (Host.dotGeneral dot_S65536x256_S256x1024_S65536x1024_1_0_0_1_n_n none x w) shapeCasts_S65536x1024_S65536x4x256
      (by norm_num) r g n (lane4 g n) rfl).trans
    (hostDot_apply dot_S65536x256_S256x1024_S65536x1024_1_0_0_1_n_n rfl x w r (lane4 g n))

def hctr3 (v : T3) : T3 := subf v (hspread3 (Host.divf (hcol3 (hsum3 v)) (hspl3 0x43800000#32)))

theorem hctr3_apply (v : T3) (r : Fin 65536) (g : Fin 4) (n : Fin 256) : hctr3 v (ix3 r g n) = ctr (fun k => v (ix3 r g k)) n := by
  show v (ix3 r g n) - hspread3 (Host.divf (hcol3 (hsum3 v)) (hspl3 0x43800000#32)) (ix3 r g n) = _
  rw [hspread3_apply]
  show v (ix3 r g n) - Ideal.div (hcol3 (hsum3 v) (ix3 r g (0 : Fin 1))) (hspl3 0x43800000#32 (ix3 r g (0 : Fin 1))) = _
  rw [hcol3_apply, hsum3_apply, hspl3_apply]
  rfl

def hden3 (c : T3) : C3 :=
  addf (Host.sqrt (addf (Host.divf (hcol3 (hsum3 (mulf c c))) (hspl3 0x43800000#32)) (hspl3 0x322BCC77#32))) (hspl3 0x322BCC77#32)

theorem hden3_apply (c : T3) (r : Fin 65536) (g : Fin 4) :
    hden3 c (ix3 r g (0 : Fin 1)) = den (∑ k : Fin 256, c (ix3 r g k) * c (ix3 r g k)) := by
  show Ideal.sqrt (Ideal.div (hcol3 (hsum3 (mulf c c)) (ix3 r g (0 : Fin 1))) (hspl3 0x43800000#32 (ix3 r g (0 : Fin 1)))
    + hspl3 0x322BCC77#32 (ix3 r g (0 : Fin 1))) + hspl3 0x322BCC77#32 (ix3 r g (0 : Fin 1)) = _
  rw [hcol3_apply, hsum3_apply, hspl3_apply, hspl3_apply]
  rfl

def hln3 (c : T3) (gm bt : FVec Ideal S1024 .f32) : T3 :=
  addf (Host.divf (mulf (hrows3 gm) c) (hspread3 (hden3 c))) (hrows3 bt)

theorem hln3_apply (c : T3) (gm bt : FVec Ideal S1024 .f32) (r : Fin 65536) (g : Fin 4) (n : Fin 256) :
    hln3 c gm bt (ix3 r g n) = lnOf (fun k => c (ix3 r g k)) (∑ k : Fin 256, c (ix3 r g k) * c (ix3 r g k))
      (fun k => gm (ix1 (lane4 g k))) (fun k => bt (ix1 (lane4 g k))) n := by
  show Ideal.div (hrows3 gm (ix3 r g n) * c (ix3 r g n)) (hspread3 (hden3 c) (ix3 r g n)) + hrows3 bt (ix3 r g n) = _
  rw [hspread3_apply, hrows3_apply, hrows3_apply, hden3_apply]
  rfl

theorem hlnFull3_apply (M : T3) (gm bt : FVec Ideal S1024 .f32) (r : Fin 65536) (g : Fin 4) (n : Fin 256) :
    hln3 (hctr3 M) gm bt (ix3 r g n)
      = rowLN (fun k => M (ix3 r g k)) (fun k => gm (ix1 (lane4 g k))) (fun k => bt (ix1 (lane4 g k))) n := by
  rw [hln3_apply]
  simp only [hctr3_apply]
  rfl

/-! ## One gate picked out, and the logistic function -/

def hgate (z : T3) (o : ℕ) (hs : S65536x4x256.Slices ![0, o, 0] S65536x1x256) : T2 :=
  shapeCast S65536x256 (extractStridedSlice S65536x1x256 ![0, o, 0] z hs) shapeCasts_S65536x1x256_S65536x256

theorem hgate_apply (z : T3) (o : ℕ) (hs : S65536x4x256.Slices ![0, o, 0] S65536x1x256) (g : Fin 4) (hg : g.val = o)
    (r : Fin 65536) (n : Fin 256) : hgate z o hs (ix2 r n) = z (ix3 r g n) := by
  show shapeCast S65536x256 (extractStridedSlice S65536x1x256 ![0, o, 0] z hs) shapeCasts_S65536x1x256_S65536x256 (ix2 r n) = _
  exact (Cert.LibSplitLanes.shapeCast_abc_ad_apply (a := 65536) (n1 := 1) (n2 := 256) (N := 256)
      (extractStridedSlice S65536x1x256 ![0, o, 0] z hs) shapeCasts_S65536x1x256_S65536x256 (by norm_num) r n (0 : Fin 1) n
      (by show n.val = 0 * 256 + n.val; omega)).trans
    (slice3_axis1_apply (n0 := 65536) (n1 := 4) (n2 := 256) (m := 1) o z hs r (0 : Fin 1) n g
      (by show g.val = o + 0; omega))

def hone2 : T2 := broadcastInDim S65536x256 ![] bcast_S_S65536x256 (constant S_ .f32 0x3F800000#32)

def hsig (z : T2) : T2 := Host.divf hone2 (addf hone2 (Host.exp (Host.negf z)))

theorem hsig_apply (z : T2) (i : S65536x256.Idx) : hsig z i = Ideal.logistic (z i) := by
  have h1 : hone2 i = 1 := (broadcastInDim_scalar_apply _ _ i).trans Ideal.ofBits_one_f32
  show Ideal.div (hone2 i) (hone2 i + Ideal.exp (-(z i))) = _
  rw [h1]
  rfl

theorem htanh_apply {s : Shape} (z : FVec Ideal s .f32) (i : s.Idx) : Host.tanh z i = Ideal.tanh (z i) := rfl

/-! ## The building blocks over [65536, 256] -/

def hsum2 (v : T2) : FVec Ideal S65536 .f32 :=
  Host.reduceAdd v (constant S_ .f32 0x00000000#32) reducesTo_S65536x256_S65536_d1 h_S_

theorem hsum2_apply (v : T2) (r : Fin 65536) : hsum2 v (ix1 r) = ∑ k : Fin 256, v (ix2 r k) := by
  refine (hostSumLast2_apply v _ _ (by decide) h_S_ r).trans ?_
  show Ideal.ofBits .f32 0x00000000#32 + _ = _
  rw [Ideal.ofBits_zero_f32, zero_add]

def hcol2 (s : FVec Ideal S65536 .f32) : C2 := broadcastInDim S65536x1 ![0] bcast_S65536_S65536x1_0 s

theorem hcol2_apply (s : FVec Ideal S65536 .f32) (r : Fin 65536) : hcol2 s (ix2 r (0 : Fin 1)) = s (ix1 r) :=
  addLast2_apply s _ r 0

def hspl2 (w : BitVec 32) : C2 := broadcastInDim S65536x1 ![] bcast_S_S65536x1 (constant S_ .f32 w)

theorem hspl2_apply (w : BitVec 32) (i : S65536x1.Idx) : hspl2 w i = Ideal.ofBits .f32 w :=
  (broadcastInDim_scalar_apply _ _ i).trans rfl

def hspread2 (c : C2) : T2 := broadcastInDim S65536x256 ![0, 1] bcast_S65536x1_S65536x256_0_1 c

theorem hspread2_apply (c : C2) (r : Fin 65536) (k : Fin 256) : hspread2 c (ix2 r k) = c (ix2 r (0 : Fin 1)) :=
  alongLast2_apply c _ r k

def hrows2 (gm : FVec Ideal S256 .f32) : T2 :=
  broadcastInDim S65536x256 ![0, 1] bcast_S1x256_S65536x256_0_1 (broadcastInDim S1x256 ![1] bcast_S256_S1x256_1 gm)

theorem hrows2_apply (gm : FVec Ideal S256 .f32) (r : Fin 65536) (n : Fin 256) : hrows2 gm (ix2 r n) = gm (ix1 n) :=
  Cert.LibDense.bias_rows_host_ix gm _ _ r n

def hctr2 (v : T2) : T2 := subf v (hspread2 (Host.divf (hcol2 (hsum2 v)) (hspl2 0x43800000#32)))

theorem hctr2_apply (v : T2) (r : Fin 65536) (n : Fin 256) : hctr2 v (ix2 r n) = ctr (fun k => v (ix2 r k)) n := by
  show v (ix2 r n) - hspread2 (Host.divf (hcol2 (hsum2 v)) (hspl2 0x43800000#32)) (ix2 r n) = _
  rw [hspread2_apply]
  show v (ix2 r n) - Ideal.div (hcol2 (hsum2 v) (ix2 r (0 : Fin 1))) (hspl2 0x43800000#32 (ix2 r (0 : Fin 1))) = _
  rw [hcol2_apply, hsum2_apply, hspl2_apply]
  rfl

def hden2 (c : T2) : C2 :=
  addf (Host.sqrt (addf (Host.divf (hcol2 (hsum2 (mulf c c))) (hspl2 0x43800000#32)) (hspl2 0x322BCC77#32))) (hspl2 0x322BCC77#32)

theorem hden2_apply (c : T2) (r : Fin 65536) :
    hden2 c (ix2 r (0 : Fin 1)) = den (∑ k : Fin 256, c (ix2 r k) * c (ix2 r k)) := by
  show Ideal.sqrt (Ideal.div (hcol2 (hsum2 (mulf c c)) (ix2 r (0 : Fin 1))) (hspl2 0x43800000#32 (ix2 r (0 : Fin 1)))
    + hspl2 0x322BCC77#32 (ix2 r (0 : Fin 1))) + hspl2 0x322BCC77#32 (ix2 r (0 : Fin 1)) = _
  rw [hcol2_apply, hsum2_apply, hspl2_apply, hspl2_apply]
  rfl

def hln2 (c : T2) (gm bt : FVec Ideal S256 .f32) : T2 :=
  addf (Host.divf (mulf (hrows2 gm) c) (hspread2 (hden2 c))) (hrows2 bt)

theorem hlnFull2_apply (M : T2) (gm bt : FVec Ideal S256 .f32) (r : Fin 65536) (n : Fin 256) :
    hln2 (hctr2 M) gm bt (ix2 r n) = rowLN (fun k => M (ix2 r k)) (fun k => gm (ix1 k)) (fun k => bt (ix1 k)) n := by
  show Ideal.div (hrows2 gm (ix2 r n) * hctr2 M (ix2 r n)) (hspread2 (hden2 (hctr2 M)) (ix2 r n)) + hrows2 bt (ix2 r n) = _
  rw [hspread2_apply, hrows2_apply, hrows2_apply, hden2_apply]
  simp only [hctr2_apply]
  rfl

end Cert.ReferenceIdeal.Rows

end
-- ==== Proof.RefValue.lean ====
/-
  The reference's two results as the row functions of the specification.

  The arrays the reference's run names on its way — the two products viewed gate by gate, their centred forms, the sum
  of the two normalised products, the new cell state and its centred form — are compositions of the building blocks
  read in the previous file; each equation of the first part holds by unfolding.  Reading the compositions at an entry
  (r, u) gives the new cell state and the new output of row r at lane u.
-/
import proofs.«109614_j44676249813258_1_alg».proof.Proof.RefRows
import proofs.«109614_j44676249813258_1_alg».proof.Proof.SpecArrays

noncomputable section

open scoped BigOperators

namespace Cert.ReferenceIdeal.Rows

open Cert.ReferenceIdeal Cert.ReferenceIdeal.Gen Cert.ReferenceIdeal.Value Idealize.ShloMosaic Idealize.ShloMosaic.ValueIdx
  Idealize.ShloMosaic.StableHlo Cert.LstmSpec Cert.LibHostRows

variable (V0 : Valuation τ sig (Elt Ideal))

/-! ## The argument arrays -/

abbrev aX : FVec Ideal S65536x256 .f32 := V0 (Proc.devRef .tc main_arg0)
abbrev aH : FVec Ideal S65536x256 .f32 := V0 (Proc.devRef .tc main_arg1)
abbrev aC : FVec Ideal S65536x256 .f32 := V0 (Proc.devRef .tc main_arg2)
abbrev aK : FVec Ideal S256x1024 .f32 := V0 (Proc.devRef .tc main_arg3)
abbrev aR : FVec Ideal S256x1024 .f32 := V0 (Proc.devRef .tc main_arg4)
abbrev aG1 : FVec Ideal S1024 .f32 := V0 (Proc.devRef .tc main_arg5)
abbrev aB1 : FVec Ideal S1024 .f32 := V0 (Proc.devRef .tc main_arg6)
abbrev aG2 : FVec Ideal S1024 .f32 := V0 (Proc.devRef .tc main_arg7)
abbrev aB2 : FVec Ideal S1024 .f32 := V0 (Proc.devRef .tc main_arg8)
abbrev aG3 : FVec Ideal S256 .f32 := V0 (Proc.devRef .tc main_arg9)
abbrev aB3 : FVec Ideal S256 .f32 := V0 (Proc.devRef .tc main_arg10)

/-! ## The run's named arrays as compositions of the building blocks -/

theorem v1_fold : res_main_v1 (F := Ideal) V0 = hproj (aX V0) (aK V0) := rfl
theorem v3_fold : res_main_v3 (F := Ideal) V0 = hproj (aH V0) (aR V0) := rfl
theorem v11_fold : res_main_v11 (F := Ideal) V0 = hctr3 (res_main_v1 V0) := rfl
theorem v37_fold : res_main_v37 (F := Ideal) V0 = hctr3 (res_main_v3 V0) := rfl
theorem v56_fold : res_main_v56 (F := Ideal) V0
    = addf (hln3 (res_main_v11 V0) (aG1 V0) (aB1 V0)) (hln3 (res_main_v37 V0) (aG2 V0) (aB2 V0)) := rfl
theorem v86_fold : res_main_v86 (F := Ideal) V0
    = addf (mulf (hsig (hgate (res_main_v56 V0) 1 slices_S65536x4x256_S65536x1x256_0_1_0)) (aC V0))
        (mulf (hsig (hgate (res_main_v56 V0) 0 slices_S65536x4x256_S65536x1x256_0_0_0)) (Host.tanh (hgate (res_main_v56 V0) 2 slices_S65536x4x256_S65536x1x256_0_2_0))) := rfl
theorem v92_fold : res_main_v92 (F := Ideal) V0 = hctr2 (res_main_v86 V0) := rfl

/-- The pre-activation array at (r, g, u). -/
theorem pre_apply (r : Fin 65536) (g : Fin 4) (u : Fin 256) :
    res_main_v56 (F := Ideal) V0 (ix3 r g u)
      = rowLN (fun n => ∑ k : Fin 256, aX V0 (ix2 r k) * aK V0 (ix2 k (lane4 g n))) (fun n => aG1 V0 (ix1 (lane4 g n)))
          (fun n => aB1 V0 (ix1 (lane4 g n))) u
        + rowLN (fun n => ∑ k : Fin 256, aH V0 (ix2 r k) * aR V0 (ix2 k (lane4 g n))) (fun n => aG2 V0 (ix1 (lane4 g n)))
          (fun n => aB2 V0 (ix1 (lane4 g n))) u := by
  rw [v56_fold, v11_fold, v37_fold, v1_fold, v3_fold]
  simp only [addf_apply, hlnFull3_apply, hproj_apply]

/-- The new cell state at (r, u). -/
theorem c_apply (r : Fin 65536) (u : Fin 256) :
    res_main_v86 (F := Ideal) V0 (ix2 r u)
      = cNew (rowOf (aX V0) r) (rowOf (aH V0) r) (rowOf (aC V0) r) (aK V0) (aR V0) (aG1 V0) (aB1 V0) (aG2 V0) (aB2 V0) u := by
  rw [v86_fold]
  simp only [addf_apply, mulf_apply, hsig_apply, htanh_apply, hgate_apply _ 0 _ (0 : Fin 4) rfl,
    hgate_apply _ 1 _ (1 : Fin 4) rfl, hgate_apply _ 2 _ (2 : Fin 4) rfl, pre_apply, lane4_zero, lane4_one, lane4_two]
  rfl

theorem c_eq : (res_main_v86 (F := Ideal) V0 : S65536x256.Idx → EReal)
    = cArr (aX V0) (aH V0) (aC V0) (aK V0) (aR V0) (aG1 V0) (aB1 V0) (aG2 V0) (aB2 V0) := by
  funext i
  obtain ⟨r, u, rfl⟩ : ∃ (r : Fin 65536) (u : Fin 256), i = ix2 r u := ⟨i 0, i 1, eq_ix2 i⟩
  exact c_apply V0 r u

/-- The new output at (r, u). -/
theorem h_apply (r : Fin 65536) (u : Fin 256) :
    mulf (hsig (hgate (res_main_v56 (F := Ideal) V0) 3 slices_S65536x4x256_S65536x1x256_0_3_0)) (Host.tanh (hln2 (res_main_v92 V0) (aG3 V0) (aB3 V0))) (ix2 r u)
      = hNew (rowOf (aX V0) r) (rowOf (aH V0) r) (rowOf (aC V0) r) (aK V0) (aR V0) (aG1 V0) (aB1 V0) (aG2 V0) (aB2 V0)
          (aG3 V0) (aB3 V0) u := by
  rw [v92_fold]
  simp only [mulf_apply, hsig_apply, htanh_apply, hgate_apply _ 3 _ (3 : Fin 4) rfl, hlnFull2_apply, pre_apply, lane4_three,
    c_apply]
  rfl

theorem h_eq : (mulf (Host.divf (broadcastInDim S65536x256 ![] bcast_S_S65536x256 (constant S_ .f32 0x3F800000#32)) (addf (broadcastInDim S65536x256 ![] bcast_S_S65536x256 (constant S_ .f32 0x3F800000#32)) (Host.exp (Host.negf (shapeCast _ (extractStridedSlice S65536x1x256 ![0, 3, 0] (res_main_v56 V0) slices_S65536x4x256_S65536x1x256_0_3_0) shapeCasts_S65536x1x256_S65536x256))))) (Host.tanh (addf (Host.divf (mulf (broadcastInDim S65536x256 ![0, 1] bcast_S1x256_S65536x256_0_1 (broadcastInDim S1x256 ![1] bcast_S256_S1x256_1 (V0 (Proc.devRef .tc main_arg9)))) (res_main_v92 V0)) (broadcastInDim S65536x256 ![0, 1] bcast_S65536x1_S65536x256_0_1 (addf (Host.sqrt (addf (Host.divf (broadcastInDim S65536x1 ![0] bcast_S65536_S65536x1_0 (Host.reduceAdd (mulf (res_main_v92 V0) (res_main_v92 V0)) (constant S_ .f32 0x00000000#32) reducesTo_S65536x256_S65536_d1 h_S_)) (broadcastInDim S65536x1 ![] bcast_S_S65536x1 (constant S_ .f32 0x43800000#32))) (broadcastInDim S65536x1 ![] bcast_S_S65536x1 (constant S_ .f32 0x322BCC77#32)))) (broadcastInDim S65536x1 ![] bcast_S_S65536x1 (constant S_ .f32 0x322BCC77#32))))) (broadcastInDim S65536x256 ![0, 1] bcast_S1x256_S65536x256_0_1 (broadcastInDim S1x256 ![1] bcast_S256_S1x256_1 (V0 (Proc.devRef .tc main_arg10)))))) : S65536x256.Idx → EReal)
    = hArr (aX V0) (aH V0) (aC V0) (aK V0) (aR V0) (aG1 V0) (aB1 V0) (aG2 V0) (aB2 V0) (aG3 V0) (aB3 V0) := by
  funext i
  obtain ⟨r, u, rfl⟩ : ∃ (r : Fin 65536) (u : Fin 256), i = ix2 r u := ⟨i 0, i 1, eq_ix2 i⟩
  exact h_apply V0 r u

end Cert.ReferenceIdeal.Rows

end
-- ==== Proof.lean ====
/-
  One step of a layer-normalised LSTM cell over 65536 batch rows: a kernel that walks over tiles of 1024 rows against
  a reference that treats all rows at once, equal on the extended reals.

  Both programs compute, for every row, the four gate pre-activations LN(x K_g) + LN(h R_g) (each product normalised
  along its 256 lanes with its own gains and offsets), the new cell state  c' = logistic(f) * c + logistic(i) * tanh(g)
  and the new output  h' = logistic(o) * tanh(LN(c')).  The kernel takes, per gate, the product of its tile with a
  256-lane slice of each weight matrix (operands narrowed to bf16, which is the identity on the extended reals); the
  reference multiplies by the whole matrices and views the result gate by gate.  Either way entry (r, n) of a gate's
  product is the sum over k of x(r, k) * K(k, g * 256 + n), the sums along the lanes run over the same 256 entries, and
  the remaining operations are applied entry by entry in the same order with the same constants (256 and the float
  nearest 1e-8 as the same binary words; the kernel's logistic is 1 / (1 + exp (-z)), which is how the reference spells
  it).  No algebraic law is needed beyond this reading, so the precondition is not used.

  The kernel's side: the body at an entry of its tile (KernelTile, KernelBody), then from tiles to arrays, an entry
  depending on its own row only (KernelValue).  The reference's side: its operations at an entry (RefRows, RefValue).
  Both meet at the row functions of Spec.  The three frames are the generated ones (the reference's is its generated
  run with the results dropped); the kernel's idealisation rewrote no operation, so there is nothing to preserve.
-/
import proofs.«109614_j44676249813258_1_alg».proof.Defs
import proofs.«109614_j44676249813258_1_alg».proof.Proof.Gen.Kernel
import proofs.«109614_j44676249813258_1_alg».proof.Proof.Gen.Kernel.Skeleton
import proofs.«109614_j44676249813258_1_alg».proof.Proof.Gen.Kernel.Launch
import proofs.«109614_j44676249813258_1_alg».proof.Proof.Gen.Kernel.Points
import proofs.«109614_j44676249813258_1_alg».proof.Proof.Gen.Kernel.Frame
import proofs.«109614_j44676249813258_1_alg».proof.Proof.Gen.KernelIdeal
import proofs.«109614_j44676249813258_1_alg».proof.Proof.Gen.KernelIdeal.Skeleton
import proofs.«109614_j44676249813258_1_alg».proof.Proof.Gen.KernelIdeal.Launch
import proofs.«109614_j44676249813258_1_alg».proof.Proof.Gen.KernelIdeal.Points
import proofs.«109614_j44676249813258_1_alg».proof.Proof.Gen.KernelIdeal.Frame
import proofs.«109614_j44676249813258_1_alg».proof.Proof.Gen.ReferenceIdeal
import proofs.«109614_j44676249813258_1_alg».proof.Proof.Gen.KernelIdeal.Value
import proofs.«109614_j44676249813258_1_alg».proof.Proof.Gen.ReferenceIdeal.Run
import proofs.«109614_j44676249813258_1_alg».proof.Proof.Gen.Pre_finite_inputs
import proofs.«109614_j44676249813258_1_alg».proof.Proof.KernelValue
import proofs.«109614_j44676249813258_1_alg».proof.Proof.RefValue
import Idealize.ShloMosaic.Adequacy
import Idealize.ShloMosaic.Init

noncomputable section

namespace Cert.Proof

open Idealize.ShloMosaic Idealize.ShloMosaic.StableHlo Idealize.SL.Sem Cert.LstmSpec

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the new outputs and the new cell states of all rows, as functions of arguments that agree. -/
theorem algebraic : Cert.algebraic_KernelIdeal_ReferenceIdeal := by
  intro m ρ m' ρ' _ hagree
  refine ⟨fun c => Cert.KernelIdeal.RowValue.hAll m c, fun c => Cert.KernelIdeal.RowValue.cAll m c,
    Cert.KernelIdeal.RowValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Rows.h_eq (launchContents m' c)).trans ?_
    obtain ⟨e0, e1, e2, e3, e4, e5, e6, e7, e8, e9, e10⟩ := hagree c
    show hArr (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      = hArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
    rw [e0, e1, e2, e3, e4, e5, e6, e7, e8, e9, e10]
  · refine (Cert.ReferenceIdeal.Rows.c_eq (launchContents m' c)).trans ?_
    obtain ⟨e0, e1, e2, e3, e4, e5, e6, e7, e8, -⟩ := hagree c
    show cArr (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      = cArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
    rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
